-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S64x10000 : Shape := ⟨2, ![64, 10000]⟩
abbrev S128x256 : Shape := ⟨2, ![128, 256]⟩
abbrev S128 : Shape := ⟨1, ![128]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S64x10000 : S_.BroadcastsInDim S64x10000 (![] : Fin 0 → Fin S64x10000.rank)
  reducesTo_S64x10000_S_d0_1 : S64x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S64x10000 .f32) (main_arg2 : FVec F S128x256 .f32) (main_arg3 : FVec F S128 .f32) (main_arg4 : IVec S64 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S64x10000 .f32 := Host.absf main_arg1
  let main_cst_0 : FVec F S_ .f32 := constant S_ .f32 0x7F800000#32
  let main_v5 : FVec F S64x10000 .f32 := broadcastInDim S64x10000 ![] bcast_S_S64x10000 main_cst_0
  let main_v6 : IVec S64x10000 1 := cmpf .olt main_v4 main_v5
  let main_c_1 : IVec S_ 1 := constantI S_ 1 1#1
  let main_v7 : IVec S_ 1 := (fun x v => Host.reduce IntOp.andi x v reducesTo_S64x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S64x10000 : Shape := ⟨2, ![64, 10000]⟩
abbrev S128x256 : Shape := ⟨2, ![128, 256]⟩
abbrev S128 : Shape := ⟨1, ![128]⟩
abbrev S64 : Shape := ⟨1, ![64]⟩
abbrev S_ : Shape := ⟨0, ![]⟩
abbrev S64x1 : Shape := ⟨2, ![64, 1]⟩
abbrev S64x128 : Shape := ⟨2, ![64, 128]⟩
abbrev S10000x64 : Shape := ⟨2, ![10000, 64]⟩
abbrev S128x128 : Shape := ⟨2, ![128, 128]⟩
abbrev S625 : Shape := ⟨1, ![625]⟩
abbrev S625x1 : Shape := ⟨2, ![625, 1]⟩
abbrev S1x64 : Shape := ⟨2, ![1, 64]⟩
abbrev S625x64 : Shape := ⟨2, ![625, 64]⟩
abbrev S625x64x1 : Shape := ⟨3, ![625, 64, 1]⟩
abbrev S625x64x128 : Shape := ⟨3, ![625, 64, 128]⟩
abbrev S625x128 : Shape := ⟨2, ![625, 128]⟩
abbrev S1x625x1x128 : Shape := ⟨4, ![1, 625, 1, 128]⟩
abbrev S16x625x1x128 : Shape := ⟨4, ![16, 625, 1, 128]⟩
abbrev S1x128 : Shape := ⟨2, ![1, 128]⟩
abbrev S400x64 : Shape := ⟨2, ![400, 64]⟩
abbrev S400x128 : Shape := ⟨2, ![400, 128]⟩

abbrev nBuf : Space → Nat
  | .hbm => 91
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S64x10000, .f32⟩
  | .hbm, ⟨2, _⟩ => ⟨S128x256, .f32⟩
  | .hbm, ⟨3, _⟩ => ⟨S128, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x128, .f32⟩
  | .hbm, ⟨14, _⟩ => ⟨S10000x64, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S64x128, .f32⟩
  | .hbm, ⟨19, _⟩ => ⟨S625, .i32⟩
  | .hbm, ⟨20, _⟩ => ⟨S_, .i32⟩
  | .hbm, ⟨21, _⟩ => ⟨S625, .i32⟩
  | .hbm, ⟨22, _⟩ => ⟨S625, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S625, .i32⟩
  | .hbm, ⟨30, _⟩ => ⟨S625, .i32⟩
  | .hbm, ⟨31, _⟩ => ⟨S_, .i32⟩
  | .hbm, ⟨32, _⟩ => ⟨S625, .i32⟩
  | .hbm, ⟨33, _⟩ => ⟨S625, .i1⟩
  | .hbm, ⟨34, _⟩ => ⟨S_, .i32⟩
  | .hbm, ⟨35, _⟩ => ⟨S625, .i32⟩
  | .hbm, ⟨36, _⟩ => ⟨S625, .i1⟩
  | .hbm, ⟨37, _⟩ => ⟨S_, .i32⟩
  | .hbm, ⟨38, _⟩ => ⟨S_, .i1⟩
  | .hbm, ⟨39, _⟩ => ⟨S625, .i1⟩
  | .hbm, ⟨40, _⟩ => ⟨S625, .i1⟩
  | .hbm, ⟨41, _⟩ => ⟨S625, .i1⟩
  | .hbm, ⟨42, _⟩ => ⟨S625, .i32⟩
  | .hbm, ⟨43, _⟩ => ⟨S625, .i32⟩
  | .hbm, ⟨44, _⟩ => ⟨S625, .i32⟩
  | .hbm, ⟨45, _⟩ => ⟨S64, .i32⟩
  | .hbm, ⟨46, _⟩ => ⟨S625x1, .i32⟩
  | .hbm, ⟨47, _⟩ => ⟨S1x64, .i32⟩
  | .hbm, ⟨48, _⟩ => ⟨S625x64, .i32⟩
  | .hbm, ⟨49, _⟩ => ⟨S625x64, .i32⟩
  | .hbm, ⟨50, _⟩ => ⟨S625x64, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S625x64, .i32⟩
  | .hbm, ⟨58, _⟩ => ⟨S625x64, .i32⟩
  | .hbm, ⟨59, _⟩ => ⟨S_, .i32⟩
  | .hbm, ⟨60, _⟩ => ⟨S625x64, .i32⟩
  | .hbm, ⟨61, _⟩ => ⟨S625x64, .i1⟩
  | .hbm, ⟨62, _⟩ => ⟨S_, .i32⟩
  | .hbm, ⟨63, _⟩ => ⟨S625x64, .i32⟩
  | .hbm, ⟨64, _⟩ => ⟨S625x64, .i1⟩
  | .hbm, ⟨65, _⟩ => ⟨S_, .i32⟩
  | .hbm, ⟨66, _⟩ => ⟨S_, .i1⟩
  | .hbm, ⟨67, _⟩ => ⟨S625x64, .i1⟩
  | .hbm, ⟨68, _⟩ => ⟨S625x64, .i1⟩
  | .hbm, ⟨69, _⟩ => ⟨S625x64, .i1⟩
  | .hbm, ⟨70, _⟩ => ⟨S625x64, .i32⟩
  | .hbm, ⟨71, _⟩ => ⟨S625x64, .i32⟩
  | .hbm, ⟨72, _⟩ => ⟨S625x64, .i32⟩
  | .hbm, ⟨73, _⟩ => ⟨S_, .i32⟩
  | .hbm, ⟨74, _⟩ => ⟨S625x64, .i32⟩
  | .hbm, ⟨75, _⟩ => ⟨S625x64, .i1⟩
  | .hbm, ⟨76, _⟩ => ⟨S_, .i32⟩
  | .hbm, ⟨77, _⟩ => ⟨S625x64, .i32⟩
  | .hbm, ⟨78, _⟩ => ⟨S625x64, .i32⟩
  | .hbm, ⟨79, _⟩ => ⟨S625x64, .i32⟩
  | .hbm, ⟨80, _⟩ => ⟨S625x64x1, .i32⟩
  | .hbm, ⟨81, _⟩ => ⟨S625x64x128, .f32⟩
  | .hbm, ⟨82, _⟩ => ⟨S_, .f32⟩
  | .hbm, ⟨83, _⟩ => ⟨S625x128, .f32⟩
  | .hbm, ⟨84, _⟩ => ⟨S128x128, .f32⟩
  | .hbm, ⟨85, _⟩ => ⟨S625x128, .f32⟩
  | .hbm, ⟨86, _⟩ => ⟨S1x625x1x128, .f32⟩
  | .hbm, ⟨87, _⟩ => ⟨S16x625x1x128, .f32⟩
  | .hbm, ⟨88, _⟩ => ⟨S10000x128, .f32⟩
  | .hbm, ⟨89, _⟩ => ⟨S1x128, .f32⟩
  | .hbm, ⟨90, _⟩ => ⟨S10000x128, .f32⟩
  | .local _ .vmem, ⟨0, _⟩ => ⟨S400x64, .f32⟩
  | .local _ .vmem, ⟨1, _⟩ => ⟨S400x64, .f32⟩
  | .local _ .vmem, ⟨2, _⟩ => ⟨S64x128, .f32⟩
  | .local _ .vmem, ⟨3, _⟩ => ⟨S400x128, .f32⟩
  | .local _ .vmem, ⟨4, _⟩ => ⟨S400x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_3 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v22 : Ref sig .tc := ⟨.hbm, 72, rfl⟩
abbrev main_c_4 : Ref sig .tc := ⟨.hbm, 73, rfl⟩
abbrev main_v23 : Ref sig .tc := ⟨.hbm, 74, rfl⟩
abbrev main_v24 : Ref sig .tc := ⟨.hbm, 75, rfl⟩
abbrev main_c_5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  transposes_S64x10000_S10000x64_1_0 : S64x10000.Transposes [1, 0] S10000x64
  slices_S128x256_S128x128_0_0 : S128x256.Slices ![0, 0] S128x128
  slices_S128x256_S128x128_0_128 : S128x256.Slices ![0, 128] S128x128
  transposes_S128x128_S128x128_1_0 : S128x128.Transposes [1, 0] S128x128
  bcast_S_S625 : S_.BroadcastsInDim S625 (![] : Fin 0 → Fin S625.rank)
  bcast_S625_S625x1_0 : S625.BroadcastsInDim S625x1 (![0] : Fin 1 → Fin S625x1.rank)
  bcast_S64_S1x64_1 : S64.BroadcastsInDim S1x64 (![1] : Fin 1 → Fin S1x64.rank)
  bcast_S625x1_S625x64_0_1 : S625x1.BroadcastsInDim S625x64 (![0, 1] : Fin 2 → Fin S625x64.rank)
  bcast_S1x64_S625x64_0_1 : S1x64.BroadcastsInDim S625x64 (![0, 1] : Fin 2 → Fin S625x64.rank)
  bcast_S_S625x64 : S_.BroadcastsInDim S625x64 (![] : Fin 0 → Fin S625x64.rank)
  bcast_S625x64_S625x64x1_0_1 : S625x64.BroadcastsInDim S625x64x1 (![0, 1] : Fin 2 → Fin S625x64x1.rank)
  reducesTo_S625x64x128_S625x128_d1 : S625x64x128.ReducesTo [1] S625x128
  h_S_ : 0 < S_.numel
  shapeCasts_S625x128_S1x625x1x128 : S625x128.ShapeCasts S1x625x1x128
  bcast_S1x625x1x128_S16x625x1x128_0_1_2_3 : S1x625x1x128.BroadcastsInDim S16x625x1x128 (![0, 1, 2, 3] : Fin 4 → Fin S16x625x1x128.rank)
  shapeCasts_S16x625x1x128_S10000x128 : S16x625x1x128.ShapeCasts S10000x128
  shapeCasts_S128_S1x128 : S128.ShapeCasts S1x128
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  gather_S10000x128_S64x1_S64x128_1_0_n_n_0_1_1128_wf : GatherDims.WF S10000x128 S64x1 S64x128 [1] [0] [] [0] [] 1 ![1, 128]
  dot_S64x128_S128x128_S64x128_1_0_0_1_n_n_wf : DotDims.WF S64x128 S128x128 S64x128 [1] [0] [0] [1] [] []
  gather_S10000x128_S625x64x1_S625x64x128_2_0_n_n_0_2_1128_wf : GatherDims.WF S10000x128 S625x64x1 S625x64x128 [2] [0] [] [0] [] 2 ![1, 128]
  dot_S625x128_S128x128_S625x128_1_0_0_1_n_n_wf : DotDims.WF S625x128 S128x128 S625x128 [1] [0] [0] [1] [] []
  dot_S400x64_S64x128_S400x128_1_0_0_1_n_n_wf : DotDims.WF S400x64 S64x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S10000x64.size a
  hwx0_0 : ∀ i : grid0.Coords, EltTy.bits .f32 = 32 ∨ (Rect.block (s := S10000x64) S400x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def gather_S10000x128_S64x1_S64x128_1_0_n_n_0_1_1128 : GatherDims S10000x128 S64x1 S64x128 where
  offsetDims := [1]
  collapsedSliceDims := [0]
  operandBatchingDims := []
  startIndicesBatchingDims := []
  startIndexMap := [0]
  indexVectorDim := 1
  sliceSizes := ![1, 128]
  wf := gather_S10000x128_S64x1_S64x128_1_0_n_n_0_1_1128_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def gather_S10000x128_S625x64x1_S625x64x128_2_0_n_n_0_2_1128 : GatherDims S10000x128 S625x64x1 S625x64x128 where
  offsetDims := [2]
  collapsedSliceDims := [0]
  operandBatchingDims := []
  startIndicesBatchingDims := []
  startIndexMap := [0]
  indexVectorDim := 2
  sliceSizes := ![1, 128]
  wf := gather_S10000x128_S625x64x1_S625x64x128_2_0_n_n_0_2_1128_wf
def dot_S625x128_S128x128_S625x128_1_0_0_1_n_n : DotDims S625x128 S128x128 S625x128 where
  lhsContracting := [1]
  rhsContracting := [0]
  lhsNonContracting := [0]
  rhsNonContracting := [1]
  lhsBatch := []
  rhsBatch := []
  wf := dot_S625x128_S128x128_S625x128_1_0_0_1_n_n_wf
def dot_S400x64_S64x128_S400x128_1_0_0_1_n_n : DotDims S400x64 S64x128 S400x128 where
  lhsContracting := [1]
  rhsContracting := [0]
  lhsNonContracting := [0]
  rhsNonContracting := [1]
  lhsBatch := []
  rhsBatch := []
  wf := dot_S400x64_S64x128_S400x128_1_0_0_1_n_n_wf

abbrev win0_0 : Pipeline.Window sig grid0 :=
  Pipeline.Window.ofSpec (Memref.whole main_v7) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S64x10000 : Shape := ⟨2, ![64, 10000]⟩
abbrev S128x256 : Shape := ⟨2, ![128, 256]⟩
abbrev S128 : Shape := ⟨1, ![128]⟩
abbrev S64 : Shape := ⟨1, ![64]⟩
abbrev S_ : Shape := ⟨0, ![]⟩
abbrev S64x1 : Shape := ⟨2, ![64, 1]⟩
abbrev S64x128 : Shape := ⟨2, ![64, 128]⟩
abbrev S1x64x128 : Shape := ⟨3, ![1, 64, 128]⟩
abbrev S10000x64 : Shape := ⟨2, ![10000, 64]⟩
abbrev S10000x64x1 : Shape := ⟨3, ![10000, 64, 1]⟩
abbrev S10000x64x128 : Shape := ⟨3, ![10000, 64, 128]⟩
abbrev S1x10000x1x128 : Shape := ⟨4, ![1, 10000, 1, 128]⟩
abbrev S64x10000x1x128 : Shape := ⟨4, ![64, 10000, 1, 128]⟩
abbrev S640000x128 : Shape := ⟨2, ![640000, 128]⟩
abbrev S10000x64x256 : Shape := ⟨3, ![10000, 64, 256]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S64x10000, .f32⟩
  | .hbm, ⟨2, _⟩ => ⟨S128x256, .f32⟩
  | .hbm, ⟨3, _⟩ => ⟨S128, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S64x128, .f32⟩
  | .hbm, ⟨14, _⟩ => ⟨S1x64x128, .f32⟩
  | .hbm, ⟨15, _⟩ => ⟨S10000x64, .f32⟩
  | .hbm, ⟨16, _⟩ => ⟨S10000x64x1, .f32⟩
  | .hbm, ⟨17, _⟩ => ⟨S10000x64x128, .f32⟩
  | .hbm, ⟨18, _⟩ => ⟨S10000x64x128, .f32⟩
  | .hbm, ⟨19, _⟩ => ⟨S10000x64x128, .f32⟩
  | .hbm, ⟨20, _⟩ => ⟨S1x10000x1x128, .f32⟩
  | .hbm, ⟨21, _⟩ => ⟨S64x10000x1x128, .f32⟩
  | .hbm, ⟨22, _⟩ => ⟨S640000x128, .f32⟩
  | .hbm, ⟨23, _⟩ => ⟨S10000x64x128, .f32⟩
  | .hbm, ⟨24, _⟩ => ⟨S10000x64x256, .f32⟩
  | .hbm, ⟨25, _⟩ => ⟨S10000x64x128, .f32⟩
  | .hbm, ⟨26, _⟩ => ⟨S1x1x128, .f32⟩
  | .hbm, ⟨27, _⟩ => ⟨S10000x64x128, .f32⟩
  | .hbm, ⟨28, _⟩ => ⟨S10000x64x128, .f32⟩
  | .hbm, ⟨29, _⟩ => ⟨S_, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x128_S1x64x128_1_2 : S64x128.BroadcastsInDim S1x64x128 (![1, 2] : Fin 2 → Fin S1x64x128.rank)
  transposes_S64x10000_S10000x64_1_0 : S64x10000.Transposes [1, 0] S10000x64
  bcast_S10000x64_S10000x64x1_0_1 : S10000x64.BroadcastsInDim S10000x64x1 (![0, 1] : Fin 2 → Fin S10000x64x1.rank)
  bcast_S1x64x128_S10000x64x128_0_1_2 : S1x64x128.BroadcastsInDim S10000x64x128 (![0, 1, 2] : Fin 3 → Fin S10000x64x128.rank)
  bcast_S10000x64x1_S10000x64x128_0_1_2 : S10000x64x1.BroadcastsInDim S10000x64x128 (![0, 1, 2] : Fin 3 → Fin S10000x64x128.rank)
  shapeCasts_S10000x128_S1x10000x1x128 : S10000x128.ShapeCasts S1x10000x1x128
  bcast_S1x10000x1x128_S64x10000x1x128_0_1_2_3 : S1x10000x1x128.BroadcastsInDim S64x10000x1x128 (![0, 1, 2, 3] : Fin 4 → Fin S64x10000x1x128.rank)
  shapeCasts_S64x10000x1x128_S640000x128 : S64x10000x1x128.ShapeCasts S640000x128
  shapeCasts_S640000x128_S10000x64x128 : S640000x128.ShapeCasts S10000x64x128
  concatenates_S10000x64x128_S10000x64x128_S10000x64x256_d2 : Shape.Concatenates [S10000x64x128, S10000x64x128] S10000x64x256 2
  bcast_S128_S1x1x128_2 : S128.BroadcastsInDim S1x1x128 (![2] : Fin 1 → Fin S1x1x128.rank)
  bcast_S1x1x128_S10000x64x128_0_1_2 : S1x1x128.BroadcastsInDim S10000x64x128 (![0, 1, 2] : Fin 3 → Fin S10000x64x128.rank)
  reducesTo_S10000x64x128_S10000x128_d1 : S10000x64x128.ReducesTo [1] S10000x128
  h_S_ : 0 < S_.numel
  bcast_S_S10000x128 : S_.BroadcastsInDim S10000x128 (![] : Fin 0 → Fin S10000x128.rank)
  gather_S10000x128_S64x1_S64x128_1_0_n_n_0_1_1128_wf : GatherDims.WF S10000x128 S64x1 S64x128 [1] [0] [] [0] [] 1 ![1, 128]
  dot_S10000x64x256_S128x256_S10000x64x128_2_1_01_0_n_n_wf : DotDims.WF S10000x64x256 S128x256 S10000x64x128 [2] [1] [0, 1] [0] [] []

variable [Facts₀]

def gather_S10000x128_S64x1_S64x128_1_0_n_n_0_1_1128 : GatherDims S10000x128 S64x1 S64x128 where
  offsetDims := [1]
  collapsedSliceDims := [0]
  operandBatchingDims := []
  startIndicesBatchingDims := []
  startIndexMap := [0]
  indexVectorDim := 1
  sliceSizes := ![1, 128]
  wf := gather_S10000x128_S64x1_S64x128_1_0_n_n_0_1_1128_wf
def dot_S10000x64x256_S128x256_S10000x64x128_2_1_01_0_n_n : DotDims S10000x64x256 S128x256 S10000x64x128 where
  lhsContracting := [2]
  rhsContracting := [1]
  lhsNonContracting := [0, 1]
  rhsNonContracting := [0]
  lhsBatch := []
  rhsBatch := []
  wf := dot_S10000x64x256_S128x256_S10000x64x128_2_1_01_0_n_n_wf

class Facts : Prop extends Facts₀ where

variable [Facts]
-- ==== Proof.PayloadEntry.lean ====
/- The kernel body's arithmetic read at one entry. The body takes a [400,64] block, a [64,128] matrix, a
   [400,128] block and a [1,128] row; it multiplies the first two as matrices into a zero accumulator, adds
   the third, scales by the constant 1/64 and adds the row, broadcast down the 400 rows. At the extended
   reals the shape casts to the same shape and the narrowing format changes are identities, so the entry
   (p, q) is the sum over the 64 contracted columns of products, plus the third block's entry, times the
   constant, plus the row's entry q. -/
import proofs.«179998_j18210661335371_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx
open scoped BigOperators

/-- The left operand's row coordinate is the output's row. -/
theorem lhs_0 (i : S400x128.Idx) (k : dot_S400x64_S64x128_S400x128_1_0_0_1_n_n.contr.Idx) :
    (dot_S400x64_S64x128_S400x128_1_0_0_1_n_n.lhsIdx i k 0).val = (i 0).val := by
  unfold DotDims.lhsIdx
  rw [dif_neg (show ¬(0 : Fin S400x64.rank) ∈ dot_S400x64_S64x128_S400x128_1_0_0_1_n_n.lhsBatch by decide),
    dif_pos (show (0 : Fin S400x64.rank) ∈ dot_S400x64_S64x128_S400x128_1_0_0_1_n_n.lhsNonContracting by decide)]
  rfl

/-- The left operand's column coordinate is the contracted one. -/
theorem lhs_1 (i : S400x128.Idx) (k : dot_S400x64_S64x128_S400x128_1_0_0_1_n_n.contr.Idx) :
    (dot_S400x64_S64x128_S400x128_1_0_0_1_n_n.lhsIdx i k 1).val = (k ⟨0, by decide⟩).val :=
  dot_S400x64_S64x128_S400x128_1_0_0_1_n_n.lhsIdx_val_of_single rfl i k

/-- The right operand's row coordinate is the contracted one. -/
theorem rhs_0 (i : S400x128.Idx) (k : dot_S400x64_S64x128_S400x128_1_0_0_1_n_n.contr.Idx) :
    (dot_S400x64_S64x128_S400x128_1_0_0_1_n_n.rhsIdx i k 0).val = (k ⟨0, by decide⟩).val :=
  dot_S400x64_S64x128_S400x128_1_0_0_1_n_n.rhsIdx_val_of_single rfl i k

/-- The right operand's column coordinate is the output's column. -/
theorem rhs_1 (i : S400x128.Idx) (k : dot_S400x64_S64x128_S400x128_1_0_0_1_n_n.contr.Idx) :
    (dot_S400x64_S64x128_S400x128_1_0_0_1_n_n.rhsIdx i k 1).val = (i 1).val := by
  unfold DotDims.rhsIdx
  rw [dif_neg (show ¬(1 : Fin S64x128.rank) ∈ dot_S400x64_S64x128_S400x128_1_0_0_1_n_n.rhsBatch by decide),
    dif_pos (show (1 : Fin S64x128.rank) ∈ dot_S400x64_S64x128_S400x128_1_0_0_1_n_n.rhsNonContracting by decide)]
  rfl

/-- The matrix product into a zero accumulator, at the entry (p, q): the sum over the 64 contracted columns. -/
theorem matmul_entry {φ₁ φ₂ : FTy} (u : FVec Ideal S400x64 φ₁) (v : FVec Ideal S64x128 φ₂) (p : Fin 400) (q : Fin 128) :
    FloatOps.matmul dot_S400x64_S64x128_S400x128_1_0_0_1_n_n none u v (constant S400x128 .f32 0x00000000#32) (ix2 p q)
      = ∑ a : Fin 64, u (ix2 p a) * v (ix2 a q) := by
  rw [Ideal.matmul_constant_zero_apply,
    ← Equiv.sum_comp (contrEquiv1 dot_S400x64_S64x128_S400x128_1_0_0_1_n_n 64 rfl rfl).symm]
  refine Finset.sum_congr rfl fun k _ => ?_
  have hk := contrEquiv1_symm_val dot_S400x64_S64x128_S400x128_1_0_0_1_n_n 64 rfl rfl k
  have el : dot_S400x64_S64x128_S400x128_1_0_0_1_n_n.lhsIdx (ix2 p q)
      ((contrEquiv1 dot_S400x64_S64x128_S400x128_1_0_0_1_n_n 64 rfl rfl).symm k) = ix2 p k :=
    funext fun a => Fin.ext (by
      match a with
      | ⟨0, _⟩ => exact lhs_0 _ _
      | ⟨1, _⟩ => exact (lhs_1 _ _).trans hk)
  have er : dot_S400x64_S64x128_S400x128_1_0_0_1_n_n.rhsIdx (ix2 p q)
      ((contrEquiv1 dot_S400x64_S64x128_S400x128_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-- The body's value at the entry (p, q). -/
theorem pay_entry (x0 : Vec Ideal S400x64 .f32) (x1 : Vec Ideal S64x128 .f32) (x2 : Vec Ideal S400x128 .f32)
    (x3 : Vec Ideal S1x128 .f32) (p : Fin 400) (q : Fin 128) :
    k0_pay1 (F := Ideal) x0 x1 x2 x3 (ix2 p q)
      = ((∑ a : Fin 64, x0 (ix2 p a) * x1 (ix2 a q)) + x2 (ix2 p q)) * Ideal.ofBits .f32 0x3C800000#32
        + x3 (ix2 (0 : Fin 1) q) := by
  unfold k0_pay1
  simp only [shapeCast_self]
  rw [addf_apply, mulf_apply, addf_apply, broadcast_apply, broadcastTo_1b_ab_apply]
  simp only [matmul]
  rw [matmul_entry]
  simp only [truncf_apply]
  rfl

end Cert.KernelIdeal.Entry

end
-- ==== Proof.WholeArray.lean ====
/- From blocks to the whole output array. The grid has 25 points; point t reads rows 400t .. 400t+399 of the
   [10000,64] array and of the [10000,128] array, the whole [64,128] matrix and the whole [1,128] row, and writes
   rows 400t .. 400t+399 of the [10000,128] output. Each entry the point writes is the body's value at that entry,
   which depends only on the output's row of the two row-blocked arrays and on the two whole arrays; so every point
   writes its block of one function G of the four arrays, the 25 row blocks tile the 10000 rows, and the output
   array ends holding G. -/
import proofs.«179998_j18210661335371_2_alg».proof.Proof.PayloadEntry
import proofs.«179998_j18210661335371_2_alg».proof.Proof.Gen.KernelIdeal.Value
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The zero offsets of a whole-block access, as a constant function. -/
theorem zero_off : (![0, 0] : Fin 2 → Nat) = fun _ => 0 := funext fun a => by fin_cases a <;> rfl

/-- The output array as one function of the four input arrays: row `r`, column `q` is the sum over the 64
    columns of the first array's row `r` against the second array's column `q`, plus the third array's entry,
    times 1/64, plus the one-row array's entry `q`. -/
def G (A0 : S10000x64.Idx → EReal) (A1 : S64x128.Idx → EReal) (A2 : S10000x128.Idx → EReal) (A3 : S1x128.Idx → EReal) :
    S10000x128.Idx → EReal :=
  fun i => ((∑ a : Fin 64, A0 (ix2 (i 0) a) * A1 (ix2 a (i 1))) + A2 i) * Ideal.ofBits .f32 0x3C800000#32
    + A3 (ix2 (0 : Fin 1) (i 1))

/-- The index maps over the 25 grid points: the two row-blocked inputs move with the output's row block, the two
    whole-array inputs stay at block (0, 0), and the output's block index is (row block, 0) with row block ≤ 24. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 24 :=
  (by decide +kernel : ∀ t : Fin grid0.N, _)

/-- Every one of the 25 row blocks is some grid point's. -/
theorem index_onto : ∀ b : Fin 25, ∃ t : Fin cfg0.N, win0_4.index t = ![b.val, 0] :=
  (by decide +kernel : ∀ b : Fin 25, ∃ t : Fin grid0.N, win0_4.index t = ![b.val, 0])

/-- One entry of one point's block: when the point's input blocks are the arrays read at the output's row
    `r` (the row-blocked ones) or read whole (the other two), the body's value at `(p, q)` is `G` at `(r, q)`. -/
theorem entry_eq (x0 : Vec Ideal S400x64 .f32) (x1 : Vec Ideal S64x128 .f32) (x2 : Vec Ideal S400x128 .f32)
    (x3 : Vec Ideal S1x128 .f32) (A0 : S10000x64.Idx → EReal) (A1 : S64x128.Idx → EReal)
    (A2 : S10000x128.Idx → EReal) (A3 : S1x128.Idx → EReal) (p : Fin 400) (q : Fin 128) (r : Fin 10000)
    (h0 : ∀ a : Fin 64, x0 (ix2 p a) = A0 (ix2 r a))
    (h1 : ∀ a : Fin 64, x1 (ix2 a q) = A1 (ix2 a q))
    (h2 : x2 (ix2 p q) = A2 (ix2 r q))
    (h3 : x3 (ix2 (0 : Fin 1) q) = A3 (ix2 (0 : Fin 1) q)) :
    k0_pay1 (F := Ideal) x0 x1 x2 x3 (ix2 p q) = G A0 A1 A2 A3 (ix2 r q) := by
  rw [Entry.pay_entry, h2, h3]
  simp only [h0, h1]
  rfl

/-- Window 0's block at point `t`, at `(p, a)`: the first array at the output's row and column `a`. -/
theorem read0 (c : Dev nD) (t : Fin cfg0.N) (p : Fin 400) (a : Fin 64) (r : Fin 10000)
    (hr : r.val = win0_4.index t (0 : Fin 2) * 400 + p.val) :
    (iblk m c 0 t : Vec Ideal S400x64 .f32) (ix2 p a) = (V m c main_v7 : S10000x64.Idx → EReal) (ix2 r a) := by
  obtain ⟨e00, e01, -⟩ := index_facts t
  unfold iblk
  rw [View.read_apply]
  show V m c main_v7 _ = V m c main_v7 _
  refine congrArg (V m c main_v7) (funext fun b => Fin.ext ?_)
  match b with
  | ⟨0, _⟩ => show win0_0.index t (0 : Fin 2) * 400 + 1 * p.val = r.val; omega
  | ⟨1, _⟩ => show win0_0.index t (1 : Fin 2) * 64 + 1 * a.val = a.val; omega

/-- Window 1's block at any point is the whole second array. -/
theorem read1 (c : Dev nD) (t : Fin cfg0.N) (a : Fin 64) (q : Fin 128) :
    (iblk m c 1 t : Vec Ideal S64x128 .f32) (ix2 a q) = (V m c main_v11 : S64x128.Idx → EReal) (ix2 a q) := by
  obtain ⟨-, -, e10, e11, -⟩ := index_facts t
  unfold iblk
  rw [View.read_apply]
  show V m c main_v11 _ = V m c main_v11 _
  refine congrArg (V m c main_v11) (funext fun b => Fin.ext ?_)
  match b with
  | ⟨0, _⟩ => show win0_1.index t (0 : Fin 2) * 64 + 1 * a.val = a.val; omega
  | ⟨1, _⟩ => show win0_1.index t (1 : Fin 2) * 128 + 1 * q.val = q.val; omega

/-- Window 2's block at point `t`, at `(p, q)`: the third array at the output's row and column `q`. -/
theorem read2 (c : Dev nD) (t : Fin cfg0.N) (p : Fin 400) (q : Fin 128) (r : Fin 10000)
    (hr : r.val = win0_4.index t (0 : Fin 2) * 400 + p.val) :
    (iblk m c 2 t : Vec Ideal S400x128 .f32) (ix2 p q) = (V m c main_v35 : S10000x128.Idx → EReal) (ix2 r q) := by
  obtain ⟨-, -, -, -, e20, e21, -⟩ := index_facts t
  unfold iblk
  rw [View.read_apply]
  show V m c main_v35 _ = V m c main_v35 _
  refine congrArg (V m c main_v35) (funext fun b => Fin.ext ?_)
  match b with
  | ⟨0, _⟩ => show win0_2.index t (0 : Fin 2) * 400 + 1 * p.val = r.val; omega
  | ⟨1, _⟩ => show win0_2.index t (1 : Fin 2) * 128 + 1 * q.val = q.val; omega

/-- Window 3's block at any point is the whole one-row array. -/
theorem read3 (c : Dev nD) (t : Fin cfg0.N) (q : Fin 128) :
    (iblk m c 3 t : Vec Ideal S1x128 .f32) (ix2 (0 : Fin 1) q) = (V m c main_v36 : S1x128.Idx → EReal) (ix2 (0 : Fin 1) q) := by
  obtain ⟨-, -, -, -, -, -, e30, e31, -⟩ := index_facts t
  unfold iblk
  rw [View.read_apply]
  show V m c main_v36 _ = V m c main_v36 _
  refine congrArg (V m c main_v36) (funext fun b => Fin.ext ?_)
  match b with
  | ⟨0, _⟩ => show win0_3.index t (0 : Fin 2) * 1 + 1 * 0 = 0; omega
  | ⟨1, _⟩ => show win0_3.index t (1 : Fin 2) * 128 + 1 * q.val = q.val; omega

/-- The output window's block at point `t` sits at rows `row block · 400 + p`, all 128 columns. -/
theorem emb4 (t : Fin cfg0.N) (p : Fin 400) (q : Fin 128) (r : Fin 10000)
    (hr : r.val = win0_4.index t (0 : Fin 2) * 400 + p.val) :
    ((cfg0.win 4).blk t).view.emb (ix2 p q) = (ix2 r q : S10000x128.Idx) := by
  obtain ⟨-, -, -, -, -, -, -, -, e41, -⟩ := index_facts t
  funext a; apply Fin.ext
  match a with
  | ⟨0, _⟩ => show win0_4.index t (0 : Fin 2) * 400 + 1 * p.val = r.val; omega
  | ⟨1, _⟩ => show win0_4.index t (1 : Fin 2) * 128 + 1 * q.val = q.val; omega

/-- WHAT POINT `t` WRITES BACK is block `t` of `G` of the four arrays as the region finds them. -/
theorem flushed_eq (c : Dev nD) (t : Fin cfg0.N) :
    (dats m 0 c).flushed 4 t = ((cfg0.win 4).blk t).view.read (Elt Ideal)
      (G (V m c main_v7) (V m c main_v11) (V m c main_v35) (V m c main_v36)) := by
  rw [Value.flushed4]
  unfold out0_4
  rw [View.canon_unit_zero zero_off]
  simp only [View.ld_unit_zero (S := S400x64) zero_off, View.ld_unit_zero (S := S64x128) zero_off,
    View.ld_unit_zero (S := S400x128) zero_off, View.ld_unit_zero (S := S1x128) zero_off]
  have e40 : win0_4.index t (0 : Fin 2) ≤ 24 := (index_facts t).2.2.2.2.2.2.2.2.2
  funext y
  obtain ⟨p, q, rfl⟩ : ∃ (p : Fin 400) (q : Fin 128), y = ix2 p q := ⟨y 0, y 1, eq_ix2 y⟩
  have hp : p.val < 400 := p.isLt
  show k0_pay1 (F := Ideal) (iblk m c 0 t) (iblk m c 1 t) (iblk m c 2 t) (iblk m c 3 t) (ix2 p q)
    = G (V m c main_v7) (V m c main_v11) (V m c main_v35) (V m c main_v36) (((cfg0.win 4).blk t).view.emb (ix2 p q))
  rw [emb4 t p q ⟨win0_4.index t (0 : Fin 2) * 400 + p.val, by omega⟩ rfl]
  exact entry_eq _ _ _ _ _ _ _ _ p q _ (fun a => read0 m c t p a _ rfl) (fun a => read1 m c t a q)
    (read2 m c t p q _ rfl) (read3 m c t q)

/-- An index of the output array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v37).slice (win0_4.rect t)).set ↔ _
  rw [View.set_slice_whole, Rect.mem_set_unit]
  exact Iff.rfl

/-- The 25 row blocks of 400 rows tile the 10000 rows: row `r` is in the block of the point with row block `r / 400`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := index_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE ARRAY after the run is `G` of the four arrays as the region finds them. -/
theorem final (c : Dev nD) : (dats m 0 c).arrAt 4 cfg0.N
    = G (V m c main_v7) (V m c main_v11) (V m c main_v35) (V m c main_v36) :=
  (dats m 0 c).arrAt_eq_of_cover 4 (G (V m c main_v7) (V m c main_v11) (V m c main_v35) (V m c main_v36))
    (fun t _ => flushed_eq m c t) cover

/-- The run, read: the output array at `G` of the four arrays, the arguments unchanged. -/
theorem run : θ_run defs (onTc (τ := τ) (main (F := Ideal))) ⟨m, fun _ => 0, ρ⟩ fun r => ∀ c : Dev nD,
      r.2.mem ((c : Thread nD τ).loc main_v37) = G (V m c main_v7) (V m c main_v11) (V m c main_v35) (V m c main_v36)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibWordRemainder.lean ====
/-
  Small natural numbers held in 32-bit words, and the host program's integer operations on them.

  A natural number `k` below `2³²` is the natural value of the word `BitVec.ofNat 32 k`; below `2³¹` that word's top
  bit is clear, so its signed reading is `k` too. On such words the wrapping product and sum are the words of the product
  and the sum of the numbers (`muli_ofNat`, `addi_ofNat`: the word of a number depends only on the number modulo `2³²`,
  and reduction modulo `2³²` is a ring homomorphism). The signed remainder of `k` by `d`, `0 < d`, both below `2³¹`, is
  away from the signed-division corner (the divisor is neither zero nor `-1`), both operands are non-negative, so it is
  the unsigned remainder, the word of `k % d` (`remsi_host_ofNat`). The floored remainder as a host program spells it —
  the truncated remainder `r`, plus the divisor when `r` and the divisor differ in sign and `r ≠ 0` — adds nothing here:
  neither `r` nor the divisor is negative, so the signs agree and the result is `r` itself (`floorRem_ofNat`). Likewise
  the wrap of a negative index, `select (k < 0) (k + n) k`, leaves a non-negative `k` alone (`select_slt_zero_ofNat`),
  and the guard that replaces a zero divisor by one leaves the divisor `10000` alone (`divisor_guard`).
-/
import Idealize.ShloMosaic.PureOps.Ideal
import Idealize.ShloMosaic.Lib.WordArith

noncomputable section

namespace Idealize.ShloMosaic.WordRemainder

open Idealize.ShloMosaic

/-- A natural number below `2³²` is the natural value of its 32-bit word. -/
theorem toNat_ofNat_of_lt (k : Nat) (hk : k < 2 ^ 32) : (BitVec.ofNat 32 k).toNat = k := by
  rw [BitVec.toNat_ofNat]; exact Nat.mod_eq_of_lt hk

/-- A natural number below `2³¹`, as a 32-bit word read signed and then clamped to the naturals, is itself: the signed
reading is already the number. -/
theorem toInt_toNat_ofNat (k : Nat) (hk : k < 2 ^ 31) : (BitVec.ofNat 32 k).toInt.toNat = k := by
  rw [WordArith.toInt_ofNat_small k hk]; exact Int.toNat_natCast k

/-- The wrapping product of the words of two natural numbers is the word of their product. -/
theorem muli_ofNat (a b : Nat) : IntOp.muli (BitVec.ofNat 32 a) (BitVec.ofNat 32 b) = BitVec.ofNat 32 (a * b) := by
  unfold IntOp.muli
  apply BitVec.eq_of_toNat_eq
  rw [BitVec.toNat_mul, BitVec.toNat_ofNat, BitVec.toNat_ofNat, BitVec.toNat_ofNat]
  exact (Nat.mul_mod a b (2 ^ 32)).symm

/-- The wrapping sum of the words of two natural numbers is the word of their sum. -/
theorem addi_ofNat (a b : Nat) : IntOp.addi (BitVec.ofNat 32 a) (BitVec.ofNat 32 b) = BitVec.ofNat 32 (a + b) := by
  unfold IntOp.addi
  apply BitVec.eq_of_toNat_eq
  rw [BitVec.toNat_add, BitVec.toNat_ofNat, BitVec.toNat_ofNat, BitVec.toNat_ofNat]
  exact (Nat.add_mod a b (2 ^ 32)).symm

/-- The word of a natural number below `2³¹` has its top bit clear. -/
theorem msb_ofNat_of_lt (k : Nat) (hk : k < 2 ^ 31) : (BitVec.ofNat 32 k).msb = false := by
  rw [BitVec.msb_eq_false_iff_two_mul_lt, toNat_ofNat_of_lt k (by omega)]; omega

/-- The signed remainder of `k` by `d`, for `0 < d` and both below `2³¹`, is the word of the natural remainder `k % d`:
the divisor is neither zero nor `-1`, so the operation is the truncated signed remainder, and with both operands
non-negative that is the unsigned remainder. -/
theorem remsi_host_ofNat (k d : Nat) (hk : k < 2 ^ 31) (hd0 : 0 < d) (hd : d < 2 ^ 31) :
    IntOp.remsi .host (BitVec.ofNat 32 k) (BitVec.ofNat 32 d) = BitVec.ofNat 32 (k % d) := by
  have hkn : (BitVec.ofNat 32 k).toNat = k := toNat_ofNat_of_lt k (by omega)
  have hdn : (BitVec.ofNat 32 d).toNat = d := toNat_ofNat_of_lt d (by omega)
  have hm1 : (-1 : BitVec 32).toNat = 4294967295 := by decide
  have hz : (0 : BitVec 32).toNat = 0 := rfl
  have hc : ¬ IntOp.SDivCorner (BitVec.ofNat 32 k) (BitVec.ofNat 32 d) := by
    rintro (h | ⟨_, h⟩)
    · have e := congrArg BitVec.toNat h
      rw [hdn, hz] at e; omega
    · have e := congrArg BitVec.toNat h
      rw [hdn, hm1] at e; omega
  unfold IntOp.remsi
  rw [if_neg hc, BitVec.srem_eq, msb_ofNat_of_lt k hk, msb_ofNat_of_lt d hd]
  apply BitVec.eq_of_toNat_eq
  have hlt := Nat.mod_lt k hd0
  rw [BitVec.toNat_umod, hkn, hdn, toNat_ofNat_of_lt (k % d) (by omega)]

/-- A natural number below `2³¹` is not signed-below zero. -/
theorem cmpi_slt_ofNat_zero (k : Nat) (hk : k < 2 ^ 31) : IntOp.cmpi .slt (BitVec.ofNat 32 k) 0#32 = 0#1 := by
  have h0 : (0#32 : BitVec 32).toInt = 0 := by decide
  have h : (BitVec.ofNat 32 k).slt 0#32 = false := by
    rw [BitVec.slt_eq_decide, WordArith.toInt_ofNat_small k hk, h0, decide_eq_false_iff_not]; omega
  show BitVec.ofBool ((BitVec.ofNat 32 k).slt 0#32) = 0#1
  rw [h]; rfl

/-- The floored remainder as a host program spells it — the truncated remainder `r`, plus the divisor when `r` and the
divisor differ in sign and `r` is not zero — is the word of `k % d` for `0 < d` and `k`, `d` below `2³¹`: neither `r`
nor the divisor is negative, so the correction is not taken. -/
theorem floorRem_ofNat (k d : Nat) (hk : k < 2 ^ 31) (hd0 : 0 < d) (hd : d < 2 ^ 31) :
    Scalar.select (IntOp.andi (IntOp.cmpi .ne (IntOp.cmpi .slt (IntOp.remsi .host (BitVec.ofNat 32 k) (BitVec.ofNat 32 d)) 0#32) (IntOp.cmpi .slt (BitVec.ofNat 32 d) 0#32)) (IntOp.cmpi .ne (IntOp.remsi .host (BitVec.ofNat 32 k) (BitVec.ofNat 32 d)) 0#32)) (IntOp.addi (IntOp.remsi .host (BitVec.ofNat 32 k) (BitVec.ofNat 32 d)) (BitVec.ofNat 32 d)) (IntOp.remsi .host (BitVec.ofNat 32 k) (BitVec.ofNat 32 d)) = BitVec.ofNat 32 (k % d) := by
  have hlt := Nat.mod_lt k hd0
  have hne : IntOp.cmpi .ne (0#1) (0#1) = 0#1 := by decide
  rw [remsi_host_ofNat k d hk hd0 hd, cmpi_slt_ofNat_zero (k % d) (by omega), cmpi_slt_ofNat_zero d hd, hne]
  unfold Scalar.select IntOp.andi
  rw [BitVec.zero_and, if_neg (by decide)]

/-- The wrap of a negative index, `select (k < 0) (k + n) k`, leaves a natural number `k` below `2³¹` alone. -/
theorem select_slt_zero_ofNat (k n : Nat) (hk : k < 2 ^ 31) :
    Scalar.select (IntOp.cmpi .slt (BitVec.ofNat 32 k) 0#32) (IntOp.addi (BitVec.ofNat 32 k) (BitVec.ofNat 32 n)) (BitVec.ofNat 32 k) = BitVec.ofNat 32 k := by
  rw [cmpi_slt_ofNat_zero k hk]
  unfold Scalar.select
  rw [if_neg (by decide)]

/-- The guard that replaces a zero divisor by one leaves the divisor `10000` alone. -/
theorem divisor_guard : Scalar.select (IntOp.cmpi .eq (10000#32) 0#32) 1#32 10000#32 = 10000#32 := by
  decide

end Idealize.ShloMosaic.WordRemainder

end
-- ==== Proof.HostTerms.lean ====
/-
  The arrays the host prepares for the kernel, as pure terms of the argument arrays, and each read at an index.

  * Window row numbers. For p < 625 and a < 64 the host computes ((64·p) mod 10000 + a) mod 10000 on signed 32-bit
    words with jnp's remainder (`floorRemV`). All the numbers involved are small and non-negative, so the word
    arithmetic is the arithmetic of natural numbers: `windowRows (p, a)` is the word of (64·p + a) mod 10000.
  * The self term. Row p of the table sums the 64 rows `windowRows (p, ·)` of `embeds` (a whole-row gather, whose
    start index is read signed and clamped into [0, 9999], which changes nothing here), and is then multiplied with
    the second half of the weight matrix given by its rows; the table is stacked 16 times, so row n of the result is
    row n mod 625 of the table.
  * The anchor projection. The 64 anchor rows of `embeds` (a whole-row gather at the wrapped anchor numbers) times the
    first half of the weight matrix given by its rows.
-/
import proofs.«179998_j18210661335371_2_alg».proof.KernelIdeal
import proofs.«179998_j18210661335371_2_alg».proof.Proof.LibRowMax
import proofs.«179998_j18210661335371_2_alg».proof.Proof.LibRowGather
import proofs.«179998_j18210661335371_2_alg».proof.Proof.LibWordRemainder
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostTerms

open Cert.KernelIdeal Idealize.ShloMosaic Idealize.ShloMosaic.ValueIdx
open scoped BigOperators

/-! ## Two keepdims placements -/

/-- An `[a]` vector placed as the column of `[a, 1]` reads, at `(p, u)`, the vector at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, b]` array placed in `[a, b, 1]` reads, at `(p, q, u)`, the array at `(p, q)`. -/
theorem broadcastInDim_ab_ab1_apply {α : Type} {a b : ℕ} (x : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

variable [Facts]
open Facts₀ Facts

/-! ## jnp's remainder on signed words -/

/-- jnp's remainder of an integer array by one integer, as the host computes it on signed words: a zero divisor is
    replaced by one, the truncating remainder is taken, and it is moved by one divisor where it is not zero and its sign
    differs from the divisor's. -/
def floorRemV (s : Shape) (hb : S_.BroadcastsInDim s (![] : Fin 0 → Fin s.rank)) (x : IVec s 32) (d0 : IVec S_ 32) : IVec s 32 :=
  let d : IVec S_ 32 := select (cmpi .eq d0 (constantI S_ 32 0#32)) (constantI S_ 32 1#32) d0
  let D : IVec s 32 := broadcastInDim s ![] hb d
  let r : IVec s 32 := Host.remsi x D
  let z : IVec s 32 := broadcastInDim s ![] hb (constantI S_ 32 0#32)
  select (andi (cmpi .ne (cmpi .slt r z) (broadcastInDim s ![] hb (cmpi .slt d (constantI S_ 32 0#32)))) (cmpi .ne r z)) (addi r D) r

/-- By the divisor 10000, at an entry holding a small natural number `k`: the word of `k mod 10000`. -/
theorem floorRemV_apply (s : Shape) (hb : S_.BroadcastsInDim s (![] : Fin 0 → Fin s.rank)) (x : IVec s 32) (i : s.Idx) (k : Nat)
    (hx : x i = BitVec.ofNat 32 k) (hk : k < 2 ^ 31) :
    floorRemV s hb x (constantI S_ 32 10000#32) i = BitVec.ofNat 32 (k % 10000) := by
  unfold floorRemV
  -- every operation reads pointwise, and a rank-0 array has one entry: the scalar expression at the entry `x i`
  show Scalar.select
      (IntOp.andi
        (IntOp.cmpi .ne
          (IntOp.cmpi .slt (IntOp.remsi .host (x i) (Scalar.select (IntOp.cmpi .eq (10000#32) 0#32) 1#32 10000#32)) 0#32)
          (IntOp.cmpi .slt (Scalar.select (IntOp.cmpi .eq (10000#32) 0#32) 1#32 10000#32) 0#32))
        (IntOp.cmpi .ne (IntOp.remsi .host (x i) (Scalar.select (IntOp.cmpi .eq (10000#32) 0#32) 1#32 10000#32)) 0#32))
      (IntOp.addi (IntOp.remsi .host (x i) (Scalar.select (IntOp.cmpi .eq (10000#32) 0#32) 1#32 10000#32))
        (Scalar.select (IntOp.cmpi .eq (10000#32) 0#32) 1#32 10000#32))
      (IntOp.remsi .host (x i) (Scalar.select (IntOp.cmpi .eq (10000#32) 0#32) 1#32 10000#32))
    = BitVec.ofNat 32 (k % 10000)
  rw [WordRemainder.divisor_guard, hx]
  exact WordRemainder.floorRem_ofNat k 10000 hk (by decide) (by decide)

/-! ## The window row numbers -/

/-- The first row of each of the 625 windows: (64·p) mod 10000. -/
def baseRows : IVec S625 32 :=
  floorRemV S625 bcast_S_S625 (muli (broadcastInDim S625 ![] bcast_S_S625 (constantI S_ 32 64#32)) (iotaInDim S625 32 0)) (constantI S_ 32 10000#32)

/-- The 64 rows of window p: (base p + a) mod 10000. -/
def windowRows : IVec S625x64 32 :=
  floorRemV S625x64 bcast_S_S625x64
    (addi (broadcastInDim S625x64 ![0, 1] bcast_S625x1_S625x64_0_1 (broadcastInDim S625x1 ![0] bcast_S625_S625x1_0 baseRows))
      (broadcastInDim S625x64 ![0, 1] bcast_S1x64_S625x64_0_1 (broadcastInDim S1x64 ![1] bcast_S64_S1x64_1 (iotaInDim S64 32 0))))
    (constantI S_ 32 10000#32)

/-- The base row of window p is the word of (64·p) mod 10000. -/
theorem baseRows_apply (p : Fin 625) : baseRows (ix1 p) = BitVec.ofNat 32 (64 * p.val % 10000) := by
  unfold baseRows
  -- the entry is the wrapping product of the words of 64 and p, the word of 64·p
  exact floorRemV_apply S625 bcast_S_S625 _ (ix1 p) (64 * p.val) (WordRemainder.muli_ofNat 64 p.val)
    (by have := p.isLt; omega)

/-- Row a of window p is the word of (64·p + a) mod 10000. -/
theorem windowRows_apply (p : Fin 625) (a : Fin 64) : windowRows (ix2 p a) = BitVec.ofNat 32 ((64 * p.val + a.val) % 10000) := by
  have hlt := Nat.mod_lt (64 * p.val) (show 0 < 10000 by decide)
  -- the base rows kept as a column and broadcast across: the base row of p
  have e1 : broadcastInDim S625x64 ![0, 1] bcast_S625x1_S625x64_0_1
      (broadcastInDim S625x1 ![0] bcast_S625_S625x1_0 baseRows) (ix2 p a) = BitVec.ofNat 32 (64 * p.val % 10000) :=
    (Cert.LibRowMax.broadcastInDim_a1_ab_apply _ bcast_S625x1_S625x64_0_1 p a).trans
      ((broadcastInDim_a_a1_apply _ bcast_S625_S625x1_0 p (0 : Fin 1)).trans (baseRows_apply p))
  -- the offsets 0 … 63 kept as a row and broadcast down: the word of a
  have e2 : broadcastInDim S625x64 ![0, 1] bcast_S1x64_S625x64_0_1
      (broadcastInDim S1x64 ![1] bcast_S64_S1x64_1 (iotaInDim S64 32 0)) (ix2 p a) = BitVec.ofNat 32 a.val :=
    (Cert.LibRowMax.broadcastInDim_1b_ab_apply _ bcast_S1x64_S625x64_0_1 p a).trans
      (Cert.LibRowMax.broadcastInDim_b_1b_apply _ bcast_S64_S1x64_1 (0 : Fin 1) a)
  unfold windowRows
  refine (floorRemV_apply S625x64 bcast_S_S625x64 _ (ix2 p a) (64 * p.val % 10000 + a.val) ?_ ?_).trans ?_
  · show IntOp.addi
        (broadcastInDim S625x64 ![0, 1] bcast_S625x1_S625x64_0_1
          (broadcastInDim S625x1 ![0] bcast_S625_S625x1_0 baseRows) (ix2 p a))
        (broadcastInDim S625x64 ![0, 1] bcast_S1x64_S625x64_0_1
          (broadcastInDim S1x64 ![1] bcast_S64_S1x64_1 (iotaInDim S64 32 0)) (ix2 p a))
      = BitVec.ofNat 32 (64 * p.val % 10000 + a.val)
    rw [e1, e2]
    exact WordRemainder.addi_ofNat _ _
  · have := a.isLt; omega
  · exact congrArg (BitVec.ofNat 32) (by omega)

/-! ## The self term -/

/-- jnp's wrap of a possibly negative row number (i < 0 ? i + 10000 : i), placed as a [625, 64, 1] array of start indices. -/
def wrapRows (v : IVec S625x64 32) : IVec S625x64x1 32 :=
  broadcastInDim S625x64x1 ![0, 1] bcast_S625x64_S625x64x1_0_1
    (select (cmpi .slt v (broadcastInDim S625x64 ![] bcast_S_S625x64 (constantI S_ 32 0#32)))
      (addi v (broadcastInDim S625x64 ![] bcast_S_S625x64 (constantI S_ 32 10000#32))) v)

/-- The self term from `embeds` (x0), the window row numbers and the [128, 128] second half of the weights (by rows):
    gather the rows, sum each window, multiply with the transposed weights, stack the 625-row table 16 times. -/
def term2 (x0 : FVec Ideal S10000x128 .f32) (v : IVec S625x64 32) (w2 : FVec Ideal S128x128 .f32) : FVec Ideal S10000x128 .f32 :=
  shapeCast S10000x128
    (broadcastInDim S16x625x1x128 ![0, 1, 2, 3] bcast_S1x625x1x128_S16x625x1x128_0_1_2_3
      (shapeCast S1x625x1x128
        (Host.dotGeneral dot_S625x128_S128x128_S625x128_1_0_0_1_n_n none
          (Host.reduceAdd (Host.gather gather_S10000x128_S625x64x1_S625x64x128_2_0_n_n_0_2_1128 x0 (wrapRows v))
            (constant S_ .f32 0x00000000#32) reducesTo_S625x64x128_S625x128_d1 h_S_)
          (transpose S128x128 [1, 0] w2 transposes_S128x128_S128x128_1_0))
        shapeCasts_S625x128_S1x625x1x128))
    shapeCasts_S16x625x1x128_S10000x128

/-- The self term with the weights' second half cut out of the [128, 256] weight matrix (x2). -/
def term2Full (x0 : FVec Ideal S10000x128 .f32) (x2 : FVec Ideal S128x256 .f32) : FVec Ideal S10000x128 .f32 :=
  term2 x0 windowRows (extractStridedSlice S128x128 ![0, 128] x2 slices_S128x256_S128x128_0_128)

/-- The start index of window p's row a, wrapped and placed: the word of (64·p + a) mod 10000, which is not negative. -/
theorem wrapRows_windowRows_apply (p : Fin 625) (a : Fin 64) :
    wrapRows windowRows (ix3 p a (0 : Fin 1)) = BitVec.ofNat 32 ((64 * p.val + a.val) % 10000) := by
  have hlt := Nat.mod_lt (64 * p.val + a.val) (show 0 < 10000 by decide)
  unfold wrapRows
  refine (broadcastInDim_ab_ab1_apply _ bcast_S625x64_S625x64x1_0_1 p a (0 : Fin 1)).trans ?_
  show Scalar.select (IntOp.cmpi .slt (windowRows (ix2 p a)) 0#32) (IntOp.addi (windowRows (ix2 p a)) 10000#32)
      (windowRows (ix2 p a)) = BitVec.ofNat 32 ((64 * p.val + a.val) % 10000)
  rw [windowRows_apply]
  exact WordRemainder.select_slt_zero_ofNat _ 10000 (by omega)

/-- The gathered rows at (p, a, k): `embeds` at row (64·p + a) mod 10000 and column k; the start index is below 10000,
    so reading it signed and clamping it into [0, 9999] leaves it as it is. -/
theorem gatherRows_apply (x0 : FVec Ideal S10000x128 .f32) (p : Fin 625) (a : Fin 64) (k : Fin 128) :
    Host.gather gather_S10000x128_S625x64x1_S625x64x128_2_0_n_n_0_2_1128 x0 (wrapRows windowRows) (ix3 p a k)
      = x0 (ix2 (⟨(64 * p.val + a.val) % 10000, Nat.mod_lt _ (by decide)⟩ : Fin 10000) k) := by
  have hlt := Nat.mod_lt (64 * p.val + a.val) (show 0 < 10000 by decide)
  refine (RowGather.gather_rows3_apply (by decide) gather_S10000x128_S625x64x1_S625x64x128_2_0_n_n_0_2_1128_wf x0
    (wrapRows windowRows) p a k).trans ?_
  refine congrArg (fun r : Fin 10000 => x0 (ix2 r k)) (Fin.ext ?_)
  show min (wrapRows windowRows (ix3 p a (0 : Fin 1))).toInt.toNat (10000 - 1) = (64 * p.val + a.val) % 10000
  rw [wrapRows_windowRows_apply, WordRemainder.toInt_toNat_ofNat _ (by omega)]
  omega

/-- The window sum at (p, k): from the initial value 0, the sum over the 64 rows of window p of `embeds` at column k. -/
theorem windowSum_apply (x0 : FVec Ideal S10000x128 .f32) (p : Fin 625) (k : Fin 128) :
    Host.reduceAdd (Host.gather gather_S10000x128_S625x64x1_S625x64x128_2_0_n_n_0_2_1128 x0 (wrapRows windowRows))
        (constant S_ .f32 0x00000000#32) reducesTo_S625x64x128_S625x128_d1 h_S_ (ix2 p k)
      = Ideal.ofBits .f32 0x00000000#32
        + ∑ a : Fin 64, x0 (ix2 (⟨(64 * p.val + a.val) % 10000, Nat.mod_lt _ (by decide)⟩ : Fin 10000) k) := by
  simp only [Host.reduceAdd, Ideal.hostReduceAdd_def]
  rw [Ideal.hostReduceAdd_single reducesTo_S625x64x128_S625x128_d1 (by decide)]
  refine congrArg (_ + ·) (Finset.sum_congr rfl fun a _ => ?_)
  -- the index (p, k) with a inserted on the summed axis is (p, a, k)
  refine Eq.trans (congrArg (Host.gather gather_S10000x128_S625x64x1_S625x64x128_2_0_n_n_0_2_1128 x0 (wrapRows windowRows))
    (funext fun ax => Fin.ext ?_)) (gatherRows_apply x0 p a k)
  match ax with
  | ⟨0, _⟩ => rfl
  | ⟨1, _⟩ => rfl
  | ⟨2, _⟩ => rfl

/-- A 625-row table stacked 16 times reads, at row n, the table's row n mod 625: row n is row n mod 625 of copy n / 625. -/
theorem stack_apply (T : FVec Ideal S625x128 .f32) (n : Fin 10000) (o : Fin 128) :
    shapeCast S10000x128
        (broadcastInDim S16x625x1x128 ![0, 1, 2, 3] bcast_S1x625x1x128_S16x625x1x128_0_1_2_3
          (shapeCast S1x625x1x128 T shapeCasts_S625x128_S1x625x1x128))
        shapeCasts_S16x625x1x128_S10000x128 (ix2 n o)
      = T (ix2 (⟨n.val % 625, Nat.mod_lt _ (by decide)⟩ : Fin 625) o) := by
  have hn := n.isLt
  have hq := Nat.mod_lt n.val (show 0 < 625 by decide)
  refine (shapeCast_apply _ shapeCasts_S16x625x1x128_S10000x128 (ix2 n o)
    (ix4 (⟨n.val / 625, by omega⟩ : Fin 16) (⟨n.val % 625, hq⟩ : Fin 625) (0 : Fin 1) o) ?_).trans ?_
  · rw [Shape.rowMajor_val_four, Shape.rowMajor_val_two]
    show ((n.val / 625 * 625 + n.val % 625) * 1 + 0) * 128 + o.val = n.val * 128 + o.val
    omega
  refine (broadcastInDim_apply _ bcast_S1x625x1x128_S16x625x1x128_0_1_2_3 _ _
    (ix4 (0 : Fin 1) (⟨n.val % 625, hq⟩ : Fin 625) (0 : Fin 1) o) (fun ax => ?_)).trans ?_
  · match ax with
    | ⟨0, _⟩ => show 0 = if (1 : ℕ) = 1 then 0 else n.val / 625; rw [if_pos rfl]
    | ⟨1, _⟩ => show n.val % 625 = if (625 : ℕ) = 1 then 0 else n.val % 625; rw [if_neg (by decide)]
    | ⟨2, _⟩ => show 0 = if (1 : ℕ) = 1 then 0 else 0; rw [if_pos rfl]
    | ⟨3, _⟩ => show o.val = if (128 : ℕ) = 1 then 0 else o.val; rw [if_neg (by decide)]
  refine shapeCast_apply T shapeCasts_S625x128_S1x625x1x128 _ (ix2 (⟨n.val % 625, hq⟩ : Fin 625) o) ?_
  rw [Shape.rowMajor_val_two, Shape.rowMajor_val_four]
  show n.val % 625 * 128 + o.val = ((0 * 625 + n.val % 625) * 1 + 0) * 128 + o.val
  omega

/-- The self term at (n, o): over the 128 features k, the sum of the 64 rows (64·(n mod 625) + a) mod 10000 of
    `embeds` at k (from the initial value 0), times the weight at (o, 128 + k). -/
theorem term2Full_apply (x0 : FVec Ideal S10000x128 .f32) (x2 : FVec Ideal S128x256 .f32) (n : Fin 10000) (o : Fin 128) :
    term2Full x0 x2 (ix2 n o)
      = ∑ k : Fin 128, (Ideal.ofBits .f32 0x00000000#32
            + ∑ a : Fin 64, x0 (ix2 (⟨(64 * (n.val % 625) + a.val) % 10000, Nat.mod_lt _ (by decide)⟩ : Fin 10000) k))
          * x2 (ix2 o (⟨128 + k.val, by omega⟩ : Fin 256)) := by
  unfold term2Full term2
  refine (stack_apply _ n o).trans ?_
  refine (Cert.LibRowMax.dotGeneral_plain_apply dot_S625x128_S128x128_S625x128_1_0_0_1_n_n_wf none _ _ _
    (⟨n.val % 625, Nat.mod_lt _ (by decide)⟩ : Fin 625) o).trans ?_
  refine Finset.sum_congr rfl fun k _ => ?_
  rw [windowSum_apply x0 _ k, transpose_ix2_apply,
    slice2_axis1_apply 128 x2 slices_S128x256_S128x128_0_128 o k (⟨128 + k.val, by omega⟩ : Fin 256) rfl]

/-! ## The anchor projection -/

/-- jnp's wrap of the anchor numbers, placed as a [64, 1] array of start indices. -/
def anchorRows (x4 : IVec S64 32) : IVec S64x1 32 :=
  broadcastInDim S64x1 ![0] bcast_S64_S64x1_0
    (select (cmpi .slt x4 (broadcastInDim S64 ![] bcast_S_S64 (constantI S_ 32 0#32)))
      (addi x4 (broadcastInDim S64 ![] bcast_S_S64 (constantI S_ 32 10000#32))) x4)

/-- The 64 anchor rows of `embeds`. -/
def anchors (x0 : FVec Ideal S10000x128 .f32) (x4 : IVec S64 32) : FVec Ideal S64x128 .f32 :=
  Host.gather gather_S10000x128_S64x1_S64x128_1_0_n_n_0_1_1128 x0 (anchorRows x4)

/-- The anchors times the first half of the weights given by its rows. -/
def proj1 (x0 : FVec Ideal S10000x128 .f32) (x2 : FVec Ideal S128x256 .f32) (x4 : IVec S64 32) : FVec Ideal S64x128 .f32 :=
  Host.dotGeneral dot_S64x128_S128x128_S64x128_1_0_0_1_n_n none (anchors x0 x4)
    (transpose S128x128 [1, 0] (extractStridedSlice S128x128 ![0, 0] x2 slices_S128x256_S128x128_0_0) transposes_S128x128_S128x128_1_0)

/-- Every anchor row is a row of `embeds`. -/
theorem anchors_row (x0 : FVec Ideal S10000x128 .f32) (x4 : IVec S64 32) :
    ∃ row : Fin 64 → Fin 10000, ∀ (a : Fin 64) (k : Fin 128), anchors x0 x4 (ix2 a k) = x0 (ix2 (row a) k) := by
  -- the row is the start index read signed and clamped into [0, 9999]
  refine ⟨fun a => ⟨min (anchorRows x4 (ix2 a (0 : Fin 1))).toInt.toNat (10000 - 1), by omega⟩, fun a k => ?_⟩
  unfold anchors
  exact RowGather.gather_rows_apply (by decide) gather_S10000x128_S64x1_S64x128_1_0_n_n_0_1_1128_wf x0 (anchorRows x4) a k

/-- The projection at (a, o): the sum over the 128 features of the anchor's entry times the weight at (o, k). -/
theorem proj1_apply (x0 : FVec Ideal S10000x128 .f32) (x2 : FVec Ideal S128x256 .f32) (x4 : IVec S64 32) (a : Fin 64) (o : Fin 128) :
    proj1 x0 x2 x4 (ix2 a o) = ∑ k : Fin 128, anchors x0 x4 (ix2 a k) * x2 (ix2 o (⟨k.val, by omega⟩ : Fin 256)) := by
  unfold proj1
  refine (Cert.LibRowMax.dotGeneral_plain_apply dot_S64x128_S128x128_S64x128_1_0_0_1_n_n_wf none _ (anchors x0 x4) _ a o).trans ?_
  refine Finset.sum_congr rfl fun k _ => ?_
  rw [transpose_ix2_apply,
    slice2_axis1_apply 0 x2 slices_S128x256_S128x128_0_0 o k (⟨k.val, by omega⟩ : Fin 256) (Nat.zero_add _).symm]

/-! ## The two relaid arguments -/

/-- The distances transposed, at (n, a). -/
theorem distsT_apply (x1 : FVec Ideal S64x10000 .f32) (n : Fin 10000) (a : Fin 64) :
    transpose S10000x64 [1, 0] x1 transposes_S64x10000_S10000x64_1_0 (ix2 n a) = x1 (ix2 a n) :=
  transpose_ix2_apply x1 transposes_S64x10000_S10000x64_1_0 n a

/-- The bias as one row, at (0, o). -/
theorem biasRow_apply (x3 : FVec Ideal S128 .f32) (o : Fin 128) :
    shapeCast S1x128 x3 shapeCasts_S128_S1x128 (ix2 (0 : Fin 1) o) = x3 (ix1 o) :=
  shapeCast_a_1a_apply x3 shapeCasts_S128_S1x128 (0 : Fin 1) o

end Cert.KernelIdeal.HostTerms

end
-- ==== Proof.HostSide.lean ====
/-
  What the kernel's four window arrays hold when the pallas_call is entered: the host operations that run before it,
  read back as pure terms of the argument arrays.

  The host program is a line of 85 operations in five stretches (two of them the body of jnp's integer remainder).
  What a buffer holds after a stretch is a computation over the stretch's operations; the stretches are composed one
  after the other. The row numbers of the self term depend on no argument: they come out as the closed integer array
  `HostTerms.windowRows`. The results: window 0 is the distances transposed, window 1 the anchor projection
  `HostTerms.proj1`, window 2 the self term `HostTerms.term2Full`, window 3 the bias as one row.
-/
import proofs.«179998_j18210661335371_2_alg».proof.Proof.Gen.KernelIdeal.Frame
import proofs.«179998_j18210661335371_2_alg».proof.Proof.HostTerms
import Idealize.ShloMosaic.Lib.StableHlo.Run

set_option maxRecDepth 16384

noncomputable section

namespace Cert.KernelIdeal.HostSide

open Cert.KernelIdeal Cert.KernelIdeal.Gen Cert.KernelIdeal.HostTerms Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The stretches one after the other -/

/-- Two lines of host operations run one after the other: the second line from what the first leaves. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The buffers at the region's entry: the five stretches composed. -/
theorem V_stages (c : Dev nD) (b : Ref sig .tc) :
    V m c b = after hostOps0_4 (after hostOps0_3 (after hostOps0_2 (after hostOps0_1 (after hostOps0 (fun b => m (c, b)))))) b := by
  dsimp only [Gen.V]
  simp only [List.flatten_cons, List.flatten_nil, List.append_nil, after_append]

/-! ## Each stretch, from any contents -/

set_option maxHeartbeats 4000000 in
/-- The first stretch leaves 64·p in the buffer the first remainder reads … -/
theorem stage0_v14 (W : Valuation τ sig (Elt Ideal)) :
    (after hostOps0 W (Proc.devRef .tc main_v14) : IVec S625 32)
      = muli (broadcastInDim S625 ![] bcast_S_S625 (constantI S_ 32 64#32)) (iotaInDim S625 32 0) := by
  dsimp only [hostOps0]
  after_results_simp

set_option maxHeartbeats 4000000 in
/-- … and the divisor 10000. -/
theorem stage0_c2 (W : Valuation τ sig (Elt Ideal)) :
    (after hostOps0 W (Proc.devRef .tc main_c_2) : IVec S_ 32) = constantI S_ 32 10000#32 := by
  dsimp only [hostOps0]
  after_results_simp

set_option maxHeartbeats 4000000 in
/-- The second stretch is jnp's remainder of its dividend buffer by its divisor buffer. -/
theorem stage1_v15 (W : Valuation τ sig (Elt Ideal)) :
    (after hostOps0_1 W (Proc.devRef .tc main_v15) : IVec S625 32)
      = floorRemV S625 bcast_S_S625 (W (Proc.devRef .tc main_v14)) (W (Proc.devRef .tc main_c_2)) := by
  dsimp only [hostOps0_1]
  after_results_simp
  rfl

set_option maxHeartbeats 4000000 in
/-- The third stretch adds the offsets 0 … 63 to each base row … -/
theorem stage2_v21 (W : Valuation τ sig (Elt Ideal)) :
    (after hostOps0_2 W (Proc.devRef .tc main_v21) : IVec S625x64 32)
      = addi (broadcastInDim S625x64 ![0, 1] bcast_S625x1_S625x64_0_1 (broadcastInDim S625x1 ![0] bcast_S625_S625x1_0 (W (Proc.devRef .tc main_v15))))
          (broadcastInDim S625x64 ![0, 1] bcast_S1x64_S625x64_0_1 (broadcastInDim S1x64 ![1] bcast_S64_S1x64_1 (iotaInDim S64 32 0))) := by
  dsimp only [hostOps0_2]
  after_results_simp

set_option maxHeartbeats 4000000 in
/-- … and writes the divisor 10000 again. -/
theorem stage2_c3 (W : Valuation τ sig (Elt Ideal)) :
    (after hostOps0_2 W (Proc.devRef .tc main_c_3) : IVec S_ 32) = constantI S_ 32 10000#32 := by
  dsimp only [hostOps0_2]
  after_results_simp

set_option maxHeartbeats 4000000 in
/-- The fourth stretch is jnp's remainder again. -/
theorem stage3_v22 (W : Valuation τ sig (Elt Ideal)) :
    (after hostOps0_3 W (Proc.devRef .tc main_v22) : IVec S625x64 32)
      = floorRemV S625x64 bcast_S_S625x64 (W (Proc.devRef .tc main_v21)) (W (Proc.devRef .tc main_c_3)) := by
  dsimp only [hostOps0_3]
  after_results_simp
  rfl

set_option maxHeartbeats 4000000 in
/-- The last stretch builds the self term from `embeds`, the row numbers and the second half of the weights. -/
theorem stage4_v35 (W : Valuation τ sig (Elt Ideal)) :
    (after hostOps0_4 W (Proc.devRef .tc main_v35) : FVec Ideal S10000x128 .f32)
      = term2 (W (Proc.devRef .tc main_arg0)) (W (Proc.devRef .tc main_v22)) (W (Proc.devRef .tc main_v9)) := by
  dsimp only [hostOps0_4]
  after_results_simp
  rfl

/-! ## What the last stretch finds -/

set_option maxHeartbeats 4000000 in
/-- No operation of the first four stretches writes `embeds`. -/
theorem before4_arg0 (c : Dev nD) :
    after hostOps0_3 (after hostOps0_2 (after hostOps0_1 (after hostOps0 (fun b => m (c, b))))) (Proc.devRef .tc main_arg0)
      = m ((c : Thread nD τ).loc main_arg0) := by
  dsimp only [hostOps0_3, hostOps0_2, hostOps0_1, hostOps0]
  after_results_simp

set_option maxHeartbeats 4000000 in
/-- The second half of the weights is cut out in the first stretch and left alone by the next three. -/
theorem before4_v9 (c : Dev nD) :
    (after hostOps0_3 (after hostOps0_2 (after hostOps0_1 (after hostOps0 (fun b => m (c, b))))) (Proc.devRef .tc main_v9) : FVec Ideal S128x128 .f32)
      = extractStridedSlice S128x128 ![0, 128] (m ((c : Thread nD τ).loc main_arg2)) slices_S128x256_S128x128_0_128 := by
  dsimp only [hostOps0_3, hostOps0_2, hostOps0_1, hostOps0]
  after_results_simp

/-- The row numbers the last stretch finds are the closed array of window rows. -/
theorem before4_v22 (c : Dev nD) :
    (after hostOps0_3 (after hostOps0_2 (after hostOps0_1 (after hostOps0 (fun b => m (c, b))))) (Proc.devRef .tc main_v22) : IVec S625x64 32)
      = windowRows := by
  rw [stage3_v22, stage2_v21, stage2_c3, stage1_v15, stage0_v14, stage0_c2]
  rfl

/-! ## The four window arrays -/

/-- Window 2's array is the self term. -/
theorem V_v35 (c : Dev nD) :
    (V m c main_v35 : FVec Ideal S10000x128 .f32) = term2Full (m ((c : Thread nD τ).loc main_arg0)) (m ((c : Thread nD τ).loc main_arg2)) := by
  rw [V_stages, stage4_v35, before4_arg0, before4_v9, before4_v22]
  rfl

set_option maxHeartbeats 4000000 in
/-- Window 0's array is the distances transposed. -/
theorem V_v7 (c : Dev nD) :
    (V m c main_v7 : FVec Ideal S10000x64 .f32) = transpose S10000x64 [1, 0] (m ((c : Thread nD τ).loc main_arg1)) transposes_S64x10000_S10000x64_1_0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp

set_option maxHeartbeats 4000000 in
/-- Window 1's array is the anchor projection. -/
theorem V_v11 (c : Dev nD) :
    (V m c main_v11 : FVec Ideal S64x128 .f32)
      = proj1 (m ((c : Thread nD τ).loc main_arg0)) (m ((c : Thread nD τ).loc main_arg2)) (m ((c : Thread nD τ).loc main_arg4)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 4000000 in
/-- Window 3's array is the bias as one row. -/
theorem V_v36 (c : Dev nD) :
    (V m c main_v36 : FVec Ideal S1x128 .f32) = shapeCast S1x128 (m ((c : Thread nD τ).loc main_arg3)) shapeCasts_S128_S1x128 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.HostSide

end
-- ==== Proof.ReferenceEntry.lean ====
/-
  The reference at one output entry.

  anchors[a,k]     : the gathered rows of the embedding table (kept as an opaque array);
  messages[n,a,k]  = anchors[a,k] * dists[a,n];
  self[n,a,k]      = embeds[(n*64 + a) mod 10000, k]   (64 stacked copies of the table, re-read in rows of 64);
  cat[n,a,·]       = messages[n,a,·] followed by self[n,a,·]   (256 columns);
  h[n,a,o]         = ∑_{k<256} cat[n,a,k] * W[o,k] + b[o];
  result[n,o]      = (0 + ∑_{a<64} h[n,a,o]) / 64.
-/
import proofs.«179998_j18210661335371_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.Entry

open Cert.ReferenceIdeal Cert.ReferenceIdeal.Read Idealize.ShloMosaic Idealize.ShloMosaic.ValueIdx
open scoped BigOperators

variable (x0 : FVec Ideal S10000x128 .f32) (x1 : FVec Ideal S64x10000 .f32) (x2 : FVec Ideal S128x256 .f32)
  (x3 : FVec Ideal S128 .f32) (x4 : IVec S64 32)

/-- The concatenated array at coordinates (n, a, k). -/
def cat (n : Fin 10000) (a : Fin 64) (k : Fin 256) : EReal := val_main_v17 (F := Ideal) x0 x1 x4 (ix3 n a k)

/-- A column below 128 of the concatenation is the message: anchors[a,k] * dists[a,n]. -/
theorem cat_left (n : Fin 10000) (a : Fin 64) (k : Fin 128) :
    cat x0 x1 x4 n a ⟨k.val, by omega⟩ = val_main_v6 (F := Ideal) x0 x4 (ix2 a k) * x1 (ix2 a n) := by
  unfold cat val_main_v17
  refine (concatenate_pair_apply_left (t := S10000x64x256) (s₁ := S10000x64x128) (s₂ := S10000x64x128) 2 _ _ _ _ rfl
    (ix3 n a k) (fun b => by
      match b with
      | ⟨0, _⟩ => rfl
      | ⟨1, _⟩ => rfl
      | ⟨2, _⟩ => rfl)).trans ?_
  rw [val_main_v12_apply, val_main_v10_apply, val_main_v7_apply, val_main_v11_apply, val_main_v9_apply, val_main_v8_apply]
  have e1 : idx_main_v7 (idx_main_v10 (ix3 n a k)) = ix2 a k :=
    funext fun b => Fin.ext (by match b with | ⟨0, _⟩ => rfl | ⟨1, _⟩ => rfl)
  have e2 : idx_main_v8 (idx_main_v9 (idx_main_v11 (ix3 n a k))) = ix2 a n :=
    funext fun b => Fin.ext (by match b with | ⟨0, _⟩ => rfl | ⟨1, _⟩ => rfl)
  rw [e1, e2]
  rfl

/-- A column 128 + k of the concatenation is the node's own row of the stacked table: embeds[(n*64 + a) mod 10000, k]. -/
theorem cat_right (n : Fin 10000) (a : Fin 64) (k : Fin 128) :
    cat x0 x1 x4 n a ⟨128 + k.val, by omega⟩
      = x0 (ix2 (⟨(n.val * 64 + a.val) % 10000, Nat.mod_lt _ (by decide)⟩ : Fin 10000) k) := by
  unfold cat val_main_v17
  refine (concatenate_pair_apply_right (t := S10000x64x256) (s₁ := S10000x64x128) (s₂ := S10000x64x128) 2 _ _ _ _ rfl rfl
    (ix3 n a k) (fun b hb => by
      match b with
      | ⟨0, _⟩ => rfl
      | ⟨1, _⟩ => rfl
      | ⟨2, _⟩ => exact absurd rfl hb) (by show k.val + 128 = 128 + k.val; omega)).trans ?_
  rw [val_main_v16_apply, val_main_v15_apply, val_main_v14_apply, val_main_v13_apply]
  refine congrArg x0 (funext fun b => Fin.ext ?_)
  have hn : n.val < 10000 := n.isLt
  have ha : a.val < 64 := a.isLt
  have hk : k.val < 128 := k.isLt
  match b with
  | ⟨0, _⟩ =>
    show ((((0 * 10000 + ((((n.val * 64 + a.val) * 128 + k.val) / 128) * 128 + (((n.val * 64 + a.val) * 128 + k.val) % 128)) / 128 % 10000) * 1 + 0) * 128 + ((((n.val * 64 + a.val) * 128 + k.val) / 128) * 128 + (((n.val * 64 + a.val) * 128 + k.val) % 128)) % 128)) / 128 = (n.val * 64 + a.val) % 10000
    omega
  | ⟨1, _⟩ =>
    show ((((0 * 10000 + ((((n.val * 64 + a.val) * 128 + k.val) / 128) * 128 + (((n.val * 64 + a.val) * 128 + k.val) % 128)) / 128 % 10000) * 1 + 0) * 128 + ((((n.val * 64 + a.val) * 128 + k.val) / 128) * 128 + (((n.val * 64 + a.val) * 128 + k.val) % 128)) % 128)) % 128 = k.val
    omega

/-- The reference's result at (n, o): the mean over the 64 anchors of the affine image of the concatenated row. -/
theorem entry (n : Fin 10000) (o : Fin 128) :
    val_main_v24 (F := Ideal) x0 x1 x2 x3 x4 (ix2 n o)
      = Ideal.div (Ideal.ofBits .f32 0x00000000#32
          + ∑ a : Fin 64, ((∑ k : Fin 256, cat x0 x1 x4 n a k * x2 (ix2 o k)) + x3 (ix1 o)))
          (Ideal.ofBits .f32 0x42800000#32) := by
  rw [val_main_v24_apply, val_main_v22_apply, val_main_v23_apply, val_main_cst_1_apply, val_main_cst_apply]
  rw [Ideal.hostDivf_def, Ideal.ofBits_def, Ideal.ofBits_def]
  refine congrArg (fun s => Ideal.div (Ideal.ofBits .f32 0x00000000#32 + s) (Ideal.ofBits .f32 0x42800000#32))
    (Finset.sum_congr rfl fun a _ => ?_)
  rw [val_main_v21_apply, val_main_v18_apply, val_main_v20_apply, val_main_v19_apply, Ideal.addf_def]
  have e3 : idx_main_v19 (idx_main_v20 (idx_main_v22 (ix2 n o) a)) = ix1 o :=
    funext fun b => Fin.ext (by match b with | ⟨0, _⟩ => rfl)
  rw [e3]
  refine congrArg (· + x3 (ix1 o)) (Finset.sum_congr rfl fun k _ => ?_)
  have el : lidx_main_v18 (idx_main_v22 (ix2 n o) a) k = ix3 n a k :=
    funext fun b => Fin.ext (by match b with | ⟨0, _⟩ => rfl | ⟨1, _⟩ => rfl | ⟨2, _⟩ => rfl)
  have er : ridx_main_v18 (idx_main_v22 (ix2 n o) a) k = ix2 o k :=
    funext fun b => Fin.ext (by match b with | ⟨0, _⟩ => rfl | ⟨1, _⟩ => rfl)
  rw [el, er]
  rfl

end Cert.ReferenceIdeal.Entry

end
-- ==== Proof.MeanLaw.lean ====
/- One algebraic identity on the extended reals, for real inputs: the mean over 64 anchors of an affine
   map of a 256-feature row (whose first 128 features are a scaled block and whose last 128 are a plain
   block) equals the expression that multiplies out first and divides by 64 at the end. -/
import Idealize.ShloMosaic.PureOps.Ideal
import Idealize.ShloMosaic.PureOps.Ideal.Laws

noncomputable section

namespace Cert.MeanLaw

open Idealize.ShloMosaic
open scoped BigOperators

/-- The pattern `0x42800000` denotes the real `64`. -/
theorem ofBits_64 : Ideal.ofBits .f32 0x42800000#32 = ((64 : ℝ) : EReal) := by
  simp [Ideal.ofBits, Ideal.ieee, -EReal.coe_mul]; norm_num

/-- The pattern `0x3C800000` denotes the real `1/64`. -/
theorem ofBits_inv64 : Ideal.ofBits .f32 0x3C800000#32 = ((1 / 64 : ℝ) : EReal) := by
  simp [Ideal.ofBits, Ideal.ieee, -EReal.coe_mul]; norm_num

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over 256 indices is the sum over the first 128 plus the sum over the last 128. -/
theorem sum_split (f : Fin 256 → EReal) :
    ∑ k : Fin 256, f k
      = (∑ k : Fin 128, f ⟨k.val, by omega⟩) + ∑ k : Fin 128, f ⟨128 + k.val, by omega⟩ := by
  have h := Fin.sum_univ_add (a := 128) (b := 128) f
  exact h

/-- The identity over the reals: distribute, exchange the two finite sums, and `64 * b / 64 = b`. -/
theorem mean_real (d : Fin 64 → ℝ) (s e : Fin 64 → Fin 128 → ℝ) (w1 w2 : Fin 128 → ℝ) (b : ℝ) :
    (∑ a : Fin 64, ((∑ k : Fin 128, s a k * d a * w1 k + ∑ k : Fin 128, e a k * w2 k) + b)) * (1 / 64)
      = ((∑ a : Fin 64, d a * ∑ k : Fin 128, s a k * w1 k)
          + ∑ k : Fin 128, (∑ a : Fin 64, e a k) * w2 k) * (1 / 64) + b := by
  have h1 : ∀ a : Fin 64, ∑ k : Fin 128, s a k * d a * w1 k = d a * ∑ k : Fin 128, s a k * w1 k := by
    intro a
    rw [Finset.mul_sum]
    exact Finset.sum_congr rfl (fun k _ => by ring)
  have h2 : ∑ a : Fin 64, ∑ k : Fin 128, e a k * w2 k = ∑ k : Fin 128, (∑ a : Fin 64, e a k) * w2 k := by
    rw [Finset.sum_comm]
    exact Finset.sum_congr rfl (fun k _ => by rw [Finset.sum_mul])
  simp only [h1, Finset.sum_add_distrib, h2, Finset.sum_const, Finset.card_univ, Fintype.card_fin,
    nsmul_eq_mul]
  push_cast
  ring

/-- The law on the extended reals, for real inputs: the quotient by 64 of the sum over the anchors of the affine map of the
    concatenated row (initial value 0) is the multiplied-out expression times 1/64 plus the bias. The 256-term sum splits
    into its two halves, every term is the coercion of a real number, and the identity is `mean_real` under the coercion. -/
theorem mean_of_affine (d : Fin 64 → ℝ) (s e : Fin 64 → Fin 128 → ℝ) (w : Fin 256 → ℝ) (b : ℝ)
    (c : Fin 64 → Fin 256 → EReal)
    (hc1 : ∀ (a : Fin 64) (k : Fin 128), c a ⟨k.val, by omega⟩ = (s a k : EReal) * (d a : EReal))
    (hc2 : ∀ (a : Fin 64) (k : Fin 128), c a ⟨128 + k.val, by omega⟩ = (e a k : EReal)) :
    Ideal.div (Ideal.ofBits .f32 0x00000000#32
        + ∑ a : Fin 64, ((∑ k : Fin 256, c a k * (w k : EReal)) + (b : EReal)))
        (Ideal.ofBits .f32 0x42800000#32)
      = ((∑ a : Fin 64, (d a : EReal) * ∑ k : Fin 128, (s a k : EReal) * (w ⟨k.val, by omega⟩ : EReal))
          + ∑ k : Fin 128, (Ideal.ofBits .f32 0x00000000#32 + ∑ a : Fin 64, (e a k : EReal))
              * (w ⟨128 + k.val, by omega⟩ : EReal))
        * Ideal.ofBits .f32 0x3C800000#32 + (b : EReal) := by
  rw [Ideal.ofBits_zero_f32, ofBits_64, ofBits_inv64, Ideal.div_coe (by norm_num : (64 : ℝ) ≠ 0)]
  have hsplit : ∀ a : Fin 64, (∑ k : Fin 256, c a k * (w k : EReal))
      = ((∑ k : Fin 128, s a k * d a * w ⟨k.val, by omega⟩
          + ∑ k : Fin 128, e a k * w ⟨128 + k.val, by omega⟩ : ℝ) : EReal) := by
    intro a
    rw [sum_split (fun k => c a k * (w k : EReal))]
    simp only [hc1, hc2]
    rw [EReal.coe_add, coe_sum, coe_sum]
    simp only [EReal.coe_mul]
  simp only [hsplit, zero_add]
  simp only [← EReal.coe_mul, ← EReal.coe_add, ← coe_sum]
  exact congrArg Real.toEReal
    (mean_real d s e (fun k => w ⟨k.val, by omega⟩) (fun k => w ⟨128 + k.val, by omega⟩) b)

end Cert.MeanLaw

end
-- ==== Proof.Bridge.lean ====
/-
  The two sides at one output entry are one real number.

  Kernel side at (n, o):  ((∑_a A0[n,a] * A1[a,o]) + A2[n,o]) * (1/64) + A3[0,o], with
    A0[n,a] = dists[a,n],
    A1[a,o] = ∑_{k<128} anchors[a,k] * W[o,k],
    A2[n,o] = ∑_{k<128} (0 + ∑_a embeds[(64*(n mod 625) + a) mod 10000, k]) * W[o,128+k],
    A3[0,o] = bias[o].
  Reference side at (n, o): the mean over the 64 anchors of ∑_{k<256} cat[n,a,k] * W[o,k] + bias[o].
  With every input entry real (hence every anchor entry, a row of embeds), the two agree by the mean law;
  and (64*(n mod 625) + a) mod 10000 = (n*64 + a) mod 10000 since 64 * 625 = 4 * 10000.
-/
import proofs.«179998_j18210661335371_2_alg».proof.Proof.ReferenceEntry
import proofs.«179998_j18210661335371_2_alg».proof.Proof.MeanLaw

noncomputable section

namespace Cert.Bridge

open Cert.ReferenceIdeal Cert.ReferenceIdeal.Read Cert.ReferenceIdeal.Entry Idealize.ShloMosaic Idealize.ShloMosaic.ValueIdx
open scoped BigOperators

theorem entry_eq (x0 : FVec Ideal S10000x128 .f32) (x1 : FVec Ideal S64x10000 .f32) (x2 : FVec Ideal S128x256 .f32) (x3 : FVec Ideal S128 .f32) (x4 : IVec S64 32)
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal))
    (hrow : ∃ row : Fin 64 → Fin 10000, ∀ (a : Fin 64) (k : Fin 128), val_main_v6 (F := Ideal) x0 x4 (ix2 a k) = x0 (ix2 (row a) k))
    (A0 : S10000x64.Idx → EReal) (A1 : S64x128.Idx → EReal) (A2 : S10000x128.Idx → EReal) (A3 : (⟨2, ![1, 128]⟩ : Shape).Idx → EReal)
    (hA0 : ∀ (n : Fin 10000) (a : Fin 64), A0 (ix2 n a) = x1 (ix2 a n))
    (hA1 : ∀ (a : Fin 64) (o : Fin 128), A1 (ix2 a o) = ∑ k : Fin 128, val_main_v6 (F := Ideal) x0 x4 (ix2 a k) * x2 (ix2 o (⟨k.val, by omega⟩ : Fin 256)))
    (hA2 : ∀ (n : Fin 10000) (o : Fin 128), A2 (ix2 n o) = ∑ k : Fin 128, (Ideal.ofBits .f32 0x00000000#32 + ∑ a : Fin 64, x0 (ix2 (⟨(64 * (n.val % 625) + a.val) % 10000, Nat.mod_lt _ (by decide)⟩ : Fin 10000) k)) * x2 (ix2 o (⟨128 + k.val, by omega⟩ : Fin 256)))
    (hA3 : ∀ o : Fin 128, A3 (ix2 (0 : Fin 1) o) = x3 (ix1 o))
    (n : Fin 10000) (o : Fin 128) :
    ((∑ a : Fin 64, A0 (ix2 n a) * A1 (ix2 a o)) + A2 (ix2 n o)) * Ideal.ofBits .f32 0x3C800000#32 + A3 (ix2 (0 : Fin 1) o)
      = val_main_v24 (F := Ideal) x0 x1 x2 x3 x4 (ix2 n o) := by
  obtain ⟨row, hrow⟩ := hrow
  choose r0 hr0 using h0
  choose r1 hr1 using h1
  choose r2 hr2 using h2
  choose r3 hr3 using h3
  -- the concatenated row's two halves, over the real witnesses
  have hc1 : ∀ (a : Fin 64) (k : Fin 128), cat x0 x1 x4 n a ⟨k.val, by omega⟩
      = ((r0 (ix2 (row a) k) : ℝ) : EReal) * ((r1 (ix2 a n) : ℝ) : EReal) := by
    intro a k
    rw [cat_left, hrow, hr0, hr1]
  have hc2 : ∀ (a : Fin 64) (k : Fin 128), cat x0 x1 x4 n a ⟨128 + k.val, by omega⟩
      = ((r0 (ix2 (⟨(n.val * 64 + a.val) % 10000, Nat.mod_lt _ (by decide)⟩ : Fin 10000) k) : ℝ) : EReal) := by
    intro a k
    rw [cat_right, hr0]
  -- the mean law at these witnesses, restated over the arrays themselves
  have M := Cert.MeanLaw.mean_of_affine (fun a => r1 (ix2 a n)) (fun a k => r0 (ix2 (row a) k))
    (fun a k => r0 (ix2 (⟨(n.val * 64 + a.val) % 10000, Nat.mod_lt _ (by decide)⟩ : Fin 10000) k))
    (fun k => r2 (ix2 o k)) (r3 (ix1 o)) (fun a k => cat x0 x1 x4 n a k) hc1 hc2
  simp only [← hr0, ← hr1, ← hr2, ← hr3] at M
  rw [entry x0 x1 x2 x3 x4 n o, M]
  -- the two spellings of the row of the stacked table
  have hfin : ∀ a : Fin 64, (⟨(64 * (n.val % 625) + a.val) % 10000, Nat.mod_lt _ (by decide)⟩ : Fin 10000)
      = ⟨(n.val * 64 + a.val) % 10000, Nat.mod_lt _ (by decide)⟩ := fun a => Fin.ext (by
    show (64 * (n.val % 625) + a.val) % 10000 = (n.val * 64 + a.val) % 10000
    omega)
  simp only [hA0, hA1, hA2, hA3, hrow, hfin]

end Cert.Bridge

end
-- ==== Proof.FiniteInputs.lean ====
/-
  From the precondition "every float input is finite" to "every float input entry is a real number".
  The precondition computes, for each float input x, the conjunction over all entries of |x| < +∞, and
  conjoins the four results. At the extended reals, |x| = max x (-x) and the bit pattern 0x7F800000 is ⊤;
  so max x (-x) < ⊤ excludes x = ⊤ and x = ⊥, leaving a real number.
-/
import proofs.«179998_j18210661335371_2_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.FiniteInputs

open Idealize.ShloMosaic Cert.Pre_finite_inputs

/-- The rank-0 shape has exactly one index. -/
instance subsingleton_S_Idx : Subsingleton S_.Idx := ⟨fun a b => funext fun d => d.elim0⟩

/-- The f32 pattern of +∞ denotes ⊤. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One array: if the entry i of |x| < broadcast(+∞) is true, the entry i of x is a real number. -/
theorem real_of_entry {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) := by
  apply real_of_abs_lt_top
  rw [← ofBits_inf]
  exact h

theorem real_of_pre [Cert.Pre_finite_inputs.Facts] (x0 : FVec Ideal S10000x128 .f32) (x1 : FVec Ideal S64x10000 .f32) (x2 : FVec Ideal S128x256 .f32) (x3 : FVec Ideal S128 .f32) (x4 : IVec S64 32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_entry _ x0 i (Host.reduce_andi_all _ _ _ _ _ h0' i)
  · exact real_of_entry _ x1 i (Host.reduce_andi_all _ _ _ _ _ h1 i)
  · exact real_of_entry _ x2 i (Host.reduce_andi_all _ _ _ _ _ h2 i)
  · exact real_of_entry _ x3 i (Host.reduce_andi_all _ _ _ _ _ h3 i)

end Cert.FiniteInputs

end
-- ==== Proof.lean ====
/-
  The proof of `Cert.Claim`: a Pallas kernel for one layer of a position-aware graph network against its jnp reference,
  at 10000 nodes, 64 anchors and 128 features.

  The reference forms, for every node n and anchor a, the 256-feature row [anchors[a,·]·dists[a,n], embeds[(64n+a) mod 10000,·]],
  applies the affine map W·row + b, and averages over the 64 anchors. The kernel multiplies out first: the host
  prepares the anchor projection anchors·W₁ᵀ, and the self term — for each of the 625 distinct windows the sum of its
  64 rows of `embeds`, times W₂ᵀ, stacked 16 times —, and the pallas_call computes, 400 rows at a time,
  (dists ᵀ·projection + self term)·(1/64) + b.

  * The three frames are the generated ones (the reference's from its generated run).
  * The ideal pass rewrote nothing, so `preserves` is trivial.
  * `algebraic`: the kernel's result array is `Whole.G` of the four window arrays (WholeArray.lean, over the generated
    blockwise value leg), the window arrays are pure terms of the arguments (HostSide.lean, HostTerms.lean), the
    reference's result is read at an entry in ReferenceEntry.lean, and the two agree entry by entry when every float
    input is a real number (Bridge.lean, by the law of MeanLaw.lean; FiniteInputs.lean reads the precondition).
-/
import proofs.«179998_j18210661335371_2_alg».proof.Defs
import proofs.«179998_j18210661335371_2_alg».proof.Proof.Gen.Kernel
import proofs.«179998_j18210661335371_2_alg».proof.Proof.Gen.Kernel.Skeleton
import proofs.«179998_j18210661335371_2_alg».proof.Proof.Gen.Kernel.Launch
import proofs.«179998_j18210661335371_2_alg».proof.Proof.Gen.Kernel.Points
import proofs.«179998_j18210661335371_2_alg».proof.Proof.Gen.Kernel.Frame
import proofs.«179998_j18210661335371_2_alg».proof.Proof.Gen.KernelIdeal
import proofs.«179998_j18210661335371_2_alg».proof.Proof.Gen.KernelIdeal.Skeleton
import proofs.«179998_j18210661335371_2_alg».proof.Proof.Gen.KernelIdeal.Launch
import proofs.«179998_j18210661335371_2_alg».proof.Proof.Gen.KernelIdeal.Points
import proofs.«179998_j18210661335371_2_alg».proof.Proof.Gen.KernelIdeal.Frame
import proofs.«179998_j18210661335371_2_alg».proof.Proof.Gen.ReferenceIdeal
import proofs.«179998_j18210661335371_2_alg».proof.Proof.Gen.KernelIdeal.Value
import proofs.«179998_j18210661335371_2_alg».proof.Proof.Gen.ReferenceIdeal.Run
import proofs.«179998_j18210661335371_2_alg».proof.Proof.Gen.ReferenceIdeal.Read
import proofs.«179998_j18210661335371_2_alg».proof.Proof.Gen.Pre_finite_inputs
import proofs.«179998_j18210661335371_2_alg».proof.Proof.WholeArray
import proofs.«179998_j18210661335371_2_alg».proof.Proof.HostSide
import proofs.«179998_j18210661335371_2_alg».proof.Proof.Bridge
import proofs.«179998_j18210661335371_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's anchor rows and the reference's are one gather of `embeds` at the wrapped anchor numbers. -/
theorem anchors_eq (x0 : FVec Ideal Cert.KernelIdeal.S10000x128 .f32) (x4 : IVec Cert.KernelIdeal.S64 32) :
    Cert.KernelIdeal.HostTerms.anchors x0 x4 = Cert.ReferenceIdeal.Read.val_main_v6 (F := Ideal) x0 x4 := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array, entry by entry, is the reference's, from memories that agree on the arguments and
    hold real numbers in every float argument. -/
theorem algebraic : Cert.algebraic_KernelIdeal_ReferenceIdeal := by
  intro m ρ m' ρ' hpre hagree
  refine ⟨fun c => Cert.KernelIdeal.Whole.G (Cert.KernelIdeal.Gen.V m c Cert.KernelIdeal.main_v7) (Cert.KernelIdeal.Gen.V m c Cert.KernelIdeal.main_v11)
      (Cert.KernelIdeal.Gen.V m c Cert.KernelIdeal.main_v35) (Cert.KernelIdeal.Gen.V m c Cert.KernelIdeal.main_v36),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1, (hagree c).2.2.2.2]
  obtain ⟨h0, h1, h2, h3⟩ := Cert.FiniteInputs.real_of_pre _ _ _ _ _ (hpre c)
  funext i
  obtain ⟨n, o, rfl⟩ : ∃ (n : Fin 10000) (o : Fin 128), i = ix2 n o := ⟨i 0, i 1, eq_ix2 i⟩
  refine (Cert.Bridge.entry_eq _ _ _ _ _ h0 h1 h2 h3 ?_
    (Cert.KernelIdeal.Gen.V m c Cert.KernelIdeal.main_v7) (Cert.KernelIdeal.Gen.V m c Cert.KernelIdeal.main_v11)
    (Cert.KernelIdeal.Gen.V m c Cert.KernelIdeal.main_v35) (Cert.KernelIdeal.Gen.V m c Cert.KernelIdeal.main_v36) ?_ ?_ ?_ ?_ n o).symm
  · obtain ⟨row, hrow⟩ := Cert.KernelIdeal.HostTerms.anchors_row (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
    exact ⟨row, fun a k => by rw [← anchors_eq]; exact hrow a k⟩
  · intro n a
    rw [Cert.KernelIdeal.HostSide.V_v7]
    exact Cert.KernelIdeal.HostTerms.distsT_apply _ n a
  · intro a o
    rw [Cert.KernelIdeal.HostSide.V_v11, ← anchors_eq]
    exact Cert.KernelIdeal.HostTerms.proj1_apply _ _ _ a o
  · intro n o
    rw [Cert.KernelIdeal.HostSide.V_v35]
    exact Cert.KernelIdeal.HostTerms.term2Full_apply _ _ n o
  · intro o
    rw [Cert.KernelIdeal.HostSide.V_v36]
    exact Cert.KernelIdeal.HostTerms.biasRow_apply _ o

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
